-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x40960 : Shape := ⟨2, ![2048, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S2048x40960 : S_.BroadcastsInDim S2048x40960 (![] : Fin 0 → Fin S2048x40960.rank)
  reducesTo_S2048x40960_S_d0_1 : S2048x40960.ReducesTo [0, 1] S_
  h_S_ : 0 < S_.numel
  bcast_S_S256x40960 : S_.BroadcastsInDim S256x40960 (![] : Fin 0 → Fin S256x40960.rank)
  reducesTo_S256x40960_S_d0_1 : S256x40960.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S32 .f32) (main_arg8 : FVec F S32x32 .f32) (main_arg9 : FVec F S32 .f32) (main_arg10 : FVec F S1x32 .f32) (main_arg11 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S1x32 .f32 := Host.absf main_arg10
  let main_cst_18 : FVec F S_ .f32 := constant S_ .f32 0x7F800000#32
  let main_v50 : FVec F S1x32 .f32 := broadcastInDim S1x32 ![] bcast_S_S1x32 main_cst_18
  fn_part3 (F := F) main_arg11 main_v48 main_v49 main_v50

def fn_part1 {F : FTy → Type} [FloatOps F] (main_arg4 : FVec F S256x40960 .f32) (main_arg5 : FVec F S256 .f32) (main_arg6 : FVec F S32x512 .f32) (main_arg7 : FVec F S32 .f32) (main_arg8 : FVec F S32x32 .f32) (main_arg9 : FVec F S32 .f32) (main_arg10 : FVec F S1x32 .f32) (main_arg11 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x40960 .f32 := Host.absf main_arg4
  let main_cst_6 : FVec F S_ .f32 := constant S_ .f32 0x7F800000#32
  let main_v20 : FVec F S256x40960 .f32 := broadcastInDim S256x40960 ![] bcast_S_S256x40960 main_cst_6
  let main_v21 : IVec S256x40960 1 := cmpf .olt main_v19 main_v20
  let main_c_7 : IVec S_ 1 := constantI S_ 1 1#1
  let main_v22 : IVec S_ 1 := (fun x v => Host.reduce IntOp.andi x v reducesTo_S256x40960_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S32x512 .f32 := Host.absf main_arg6
  let main_cst_10 : FVec F S_ .f32 := constant S_ .f32 0x7F800000#32
  let main_v30 : FVec F S32x512 .f32 := broadcastInDim S32x512 ![] bcast_S_S32x512 main_cst_10
  let main_v31 : IVec S32x512 1 := cmpf .olt main_v29 main_v30
  let main_c_11 : IVec S_ 1 := constantI S_ 1 1#1
  let main_v32 : IVec S_ 1 := (fun x v => Host.reduce IntOp.andi x v reducesTo_S32x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x40960 .f32) (main_arg1 : FVec F S2048x40960 .f32) (main_arg2 : FVec F S256x40960 .f32) (main_arg3 : FVec F S256 .f32) (main_arg4 : FVec F S256x40960 .f32) (main_arg5 : FVec F S256 .f32) (main_arg6 : FVec F S32x512 .f32) (main_arg7 : FVec F S32 .f32) (main_arg8 : FVec F S32x32 .f32) (main_arg9 : FVec F S32 .f32) (main_arg10 : FVec F S1x32 .f32) (main_arg11 : FVec F S1 .f32) : IVec S_ 1 :=
  let main_v0 : FVec F S2048x40960 .f32 := Host.absf main_arg0
  let main_cst : FVec F S_ .f32 := constant S_ .f32 0x7F800000#32
  let main_v1 : FVec F S2048x40960 .f32 := broadcastInDim S2048x40960 ![] bcast_S_S2048x40960 main_cst
  let main_v2 : IVec S2048x40960 1 := cmpf .olt main_v0 main_v1
  let main_c : IVec S_ 1 := constantI S_ 1 1#1
  let main_v3 : IVec S_ 1 := (fun x v => Host.reduce IntOp.andi x v reducesTo_S2048x40960_S_d0_1 h_S_) main_v2 main_c
  let main_v4 : FVec F S2048x40960 .f32 := Host.absf main_arg1
  let main_cst_0 : FVec F S_ .f32 := constant S_ .f32 0x7F800000#32
  let main_v5 : FVec F S2048x40960 .f32 := broadcastInDim S2048x40960 ![] bcast_S_S2048x40960 main_cst_0
  let main_v6 : IVec S2048x40960 1 := cmpf .olt main_v4 main_v5
  let main_c_1 : IVec S_ 1 := constantI S_ 1 1#1
  let main_v7 : IVec S_ 1 := (fun x v => Host.reduce IntOp.andi x v reducesTo_S2048x40960_S_d0_1 h_S_) main_v6 main_c_1
  let main_v8 : IVec S_ 1 := andi main_v3 main_v7
  let main_v9 : FVec F S256x40960 .f32 := Host.absf main_arg2
  let main_cst_2 : FVec F S_ .f32 := constant S_ .f32 0x7F800000#32
  let main_v10 : FVec F S256x40960 .f32 := broadcastInDim S256x40960 ![] bcast_S_S256x40960 main_cst_2
  let main_v11 : IVec S256x40960 1 := cmpf .olt main_v9 main_v10
  let main_c_3 : IVec S_ 1 := constantI S_ 1 1#1
  let main_v12 : IVec S_ 1 := (fun x v => Host.reduce IntOp.andi x v reducesTo_S256x40960_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S2048x40960 : Shape := ⟨2, ![2048, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1x256 : Shape := ⟨2, ![1, 256]⟩
abbrev S1x1 : Shape := ⟨2, ![1, 1]⟩
abbrev S2048x1 : Shape := ⟨2, ![2048, 1]⟩
abbrev S1024x1280 : Shape := ⟨2, ![1024, 1280]⟩
abbrev S256x1280 : Shape := ⟨2, ![256, 1280]⟩
abbrev S1024x1 : Shape := ⟨2, ![1024, 1]⟩
abbrev S1024x256 : Shape := ⟨2, ![1024, 256]⟩
abbrev S1024x512 : Shape := ⟨2, ![1024, 512]⟩
abbrev S1024x32 : Shape := ⟨2, ![1024, 32]⟩
abbrev S1024 : Shape := ⟨1, ![1024]⟩

abbrev nBuf : Space → Nat
  | .hbm => 18
  | .vmem => 20
  | .smem => 0
  | _ => 0

abbrev bufTy : (tb : Table) → Fin (tcTables nBuf tb) → BufTy
  | .hbm, ⟨0, _⟩ => ⟨S2048x40960, .f32⟩
  | .hbm, ⟨1, _⟩ => ⟨S2048x40960, .f32⟩
  | .hbm, ⟨2, _⟩ => ⟨S256x40960, .f32⟩
  | .hbm, ⟨3, _⟩ => ⟨S256, .f32⟩
  | .hbm, ⟨4, _⟩ => ⟨S256x40960, .f32⟩
  | .hbm, ⟨5, _⟩ => ⟨S256, .f32⟩
  | .hbm, ⟨6, _⟩ => ⟨S32x512, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S1x32, .f32⟩
  | .hbm, ⟨11, _⟩ => ⟨S1, .f32⟩
  | .hbm, ⟨12, _⟩ => ⟨S1x256, .f32⟩
  | .hbm, ⟨13, _⟩ => ⟨S1x256, .f32⟩
  | .hbm, ⟨14, _⟩ => ⟨S1x32, .f32⟩
  | .hbm, ⟨15, _⟩ => ⟨S1x32, .f32⟩
  | .hbm, ⟨16, _⟩ => ⟨S1x1, .f32⟩
  | .hbm, ⟨17, _⟩ => ⟨S2048x1, .f32⟩
  | .local _ .vmem, ⟨0, _⟩ => ⟨S1024x1280, .f32⟩
  | .local _ .vmem, ⟨1, _⟩ => ⟨S1024x1280, .f32⟩
  | .local _ .vmem, ⟨2, _⟩ => ⟨S1024x1280, .f32⟩
  | .local _ .vmem, ⟨3, _⟩ => ⟨S1024x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S1x256, .f32⟩
  | .local _ .vmem, ⟨9, _⟩ => ⟨S1x256, .f32⟩
  | .local _ .vmem, ⟨10, _⟩ => ⟨S32x512, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S1x32, .f32⟩
  | .local _ .vmem, ⟨15, _⟩ => ⟨S1x1, .f32⟩
  | .local _ .vmem, ⟨16, _⟩ => ⟨S1024x1, .f32⟩
  | .local _ .vmem, ⟨17, _⟩ => ⟨S1024x1, .f32⟩
  | .local _ .vmem, ⟨18, _⟩ => ⟨S1024x256, .f32⟩
  | .local _ .vmem, ⟨19, _⟩ => ⟨S1024x256, .f32⟩
  | _, _ => ⟨S2048x40960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v23 : BitVec 1 := Scalar.cmpi .eq arg1 c31_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  shapeCasts_S256_S1x256 : S256.ShapeCasts S1x256
  shapeCasts_S32_S1x32 : S32.ShapeCasts S1x32
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1280_S1024x1280_0_0 : ∀ a, (![0, 0] : Fin 2 → Nat) a + S1024x1280.size a ≤ S1024x1280.size a
  h_S1024x1280 : 0 < S1024x1280.numel
  bitsLt_bf16_f32 : FTy.bits .bf16 < FTy.bits .f32
  inb_S256x1280_S256x1280_0_0 : ∀ a, (![0, 0] : Fin 2 → Nat) a + S256x1280.size a ≤ S256x1280.size a
  h_S256x1280 : 0 < S256x1280.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  concatenates_S1024x256_S1024x256_S1024x512_d1 : Shape.Concatenates [S1024x256, S1024x256] S1024x512 1
  inb_S32x512_S32x512_0_0 : ∀ a, (![0, 0] : Fin 2 → Nat) a + S32x512.size a ≤ S32x512.size a
  h_S32x512 : 0 < S32x512.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x32_S32x32_0_0 : ∀ a, (![0, 0] : Fin 2 → Nat) a + S32x32.size a ≤ S32x32.size a
  h_S32x32 : 0 < S32x32.numel
  reduces_S1024x32_S1024 : S1024x32.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x1280_S256x1280_S1024x256_1_1_0_0_n_n_wf : DotDims.WF S1024x1280 S256x1280 S1024x256 [1] [1] [0] [0] [] []
  dot_S1024x512_S32x512_S1024x32_1_1_0_0_n_n_wf : DotDims.WF S1024x512 S32x512 S1024x32 [1] [1] [0] [0] [] []
  dot_S1024x32_S32x32_S1024x32_1_1_0_0_n_n_wf : DotDims.WF S1024x32 S32x32 S1024x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S2048x40960.size a
  hwx0_0 : ∀ i : grid0.Coords, EltTy.bits .f32 = 32 ∨ (Rect.block (s := S2048x40960) S1024x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1280.size a ≤ S2048x40960.size a
  hwx0_1 : ∀ i : grid0.Coords, EltTy.bits .f32 = 32 ∨ (Rect.block (s := S2048x40960) S1024x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1280.size a ≤ S256x40960.size a
  hwx0_2 : ∀ i : grid0.Coords, EltTy.bits .f32 = 32 ∨ (Rect.block (s := S256x40960) S256x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1280.size a ≤ S256x40960.size a
  hwx0_3 : ∀ i : grid0.Coords, EltTy.bits .f32 = 32 ∨ (Rect.block (s := S256x40960) S256x1280.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x512.size a ≤ S32x512.size a
  hwx0_6 : ∀ i : grid0.Coords, EltTy.bits .f32 = 32 ∨ (Rect.block (s := S32x512) S32x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x1.size a ≤ S2048x1.size a
  hwx0_12 : ∀ i : grid0.Coords, EltTy.bits .f32 = 32 ∨ (Rect.block (s := S2048x1) S1024x1.size (cc0_transform_12 i) (hinb0_12 i)).WholeWords (EltTy.packing .f32)

variable [Facts₀]

def dot_S1024x1280_S256x1280_S1024x256_1_1_0_0_n_n : DotDims S1024x1280 S256x1280 S1024x256 where
  lhsContracting := [1]
  rhsContracting := [1]
  lhsNonContracting := [0]
  rhsNonContracting := [0]
  lhsBatch := []
  rhsBatch := []
  wf := dot_S1024x1280_S256x1280_S1024x256_1_1_0_0_n_n_wf
def dot_S1024x512_S32x512_S1024x32_1_1_0_0_n_n : DotDims S1024x512 S32x512 S1024x32 where
  lhsContracting := [1]
  rhsContracting := [1]
  lhsNonContracting := [0]
  rhsNonContracting := [0]
  lhsBatch := []
  rhsBatch := []
  wf := dot_S1024x512_S32x512_S1024x32_1_1_0_0_n_n_wf
def dot_S1024x32_S32x32_S1024x32_1_1_0_0_n_n : DotDims S1024x32 S32x32 S1024x32 where
  lhsContracting := [1]
  rhsContracting := [1]
  lhsNonContracting := [0]
  rhsNonContracting := [0]
  lhsBatch := []
  rhsBatch := []
  wf := dot_S1024x32_S32x32_S1024x32_1_1_0_0_n_n_wf

abbrev win0_0 : Pipeline.Window sig grid0 :=
  Pipeline.Window.ofSpec (Memref.whole main_arg0) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x1280.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1024x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S2048x40960 : Shape := ⟨2, ![2048, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S40960x256 : Shape := ⟨2, ![40960, 256]⟩
abbrev S2048x256 : Shape := ⟨2, ![2048, 256]⟩
abbrev S1x256 : Shape := ⟨2, ![1, 256]⟩
abbrev S_ : Shape := ⟨0, ![]⟩
abbrev S2048x512 : Shape := ⟨2, ![2048, 512]⟩
abbrev S512x32 : Shape := ⟨2, ![512, 32]⟩
abbrev S2048x32 : Shape := ⟨2, ![2048, 32]⟩
abbrev S32x1 : Shape := ⟨2, ![32, 1]⟩
abbrev S2048x1 : Shape := ⟨2, ![2048, 1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S2048x40960, .f32⟩
  | .hbm, ⟨1, _⟩ => ⟨S2048x40960, .f32⟩
  | .hbm, ⟨2, _⟩ => ⟨S256x40960, .f32⟩
  | .hbm, ⟨3, _⟩ => ⟨S256, .f32⟩
  | .hbm, ⟨4, _⟩ => ⟨S256x40960, .f32⟩
  | .hbm, ⟨5, _⟩ => ⟨S256, .f32⟩
  | .hbm, ⟨6, _⟩ => ⟨S32x512, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S1x32, .f32⟩
  | .hbm, ⟨11, _⟩ => ⟨S1, .f32⟩
  | .hbm, ⟨12, _⟩ => ⟨S40960x256, .f32⟩
  | .hbm, ⟨13, _⟩ => ⟨S2048x256, .f32⟩
  | .hbm, ⟨14, _⟩ => ⟨S1x256, .f32⟩
  | .hbm, ⟨15, _⟩ => ⟨S2048x256, .f32⟩
  | .hbm, ⟨16, _⟩ => ⟨S2048x256, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2048x256, .f32⟩
  | .hbm, ⟨21, _⟩ => ⟨S2048x256, .f32⟩
  | .hbm, ⟨22, _⟩ => ⟨S_, .f32⟩
  | .hbm, ⟨23, _⟩ => ⟨S2048x256, .f32⟩
  | .hbm, ⟨24, _⟩ => ⟨S2048x256, .f32⟩
  | .hbm, ⟨25, _⟩ => ⟨S40960x256, .f32⟩
  | .hbm, ⟨26, _⟩ => ⟨S2048x256, .f32⟩
  | .hbm, ⟨27, _⟩ => ⟨S1x256, .f32⟩
  | .hbm, ⟨28, _⟩ => ⟨S2048x256, .f32⟩
  | .hbm, ⟨29, _⟩ => ⟨S2048x256, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2048x256, .f32⟩
  | .hbm, ⟨34, _⟩ => ⟨S2048x256, .f32⟩
  | .hbm, ⟨35, _⟩ => ⟨S_, .f32⟩
  | .hbm, ⟨36, _⟩ => ⟨S2048x256, .f32⟩
  | .hbm, ⟨37, _⟩ => ⟨S2048x256, .f32⟩
  | .hbm, ⟨38, _⟩ => ⟨S2048x512, .f32⟩
  | .hbm, ⟨39, _⟩ => ⟨S512x32, .f32⟩
  | .hbm, ⟨40, _⟩ => ⟨S2048x32, .f32⟩
  | .hbm, ⟨41, _⟩ => ⟨S1x32, .f32⟩
  | .hbm, ⟨42, _⟩ => ⟨S2048x32, .f32⟩
  | .hbm, ⟨43, _⟩ => ⟨S2048x32, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048x32, .f32⟩
  | .hbm, ⟨48, _⟩ => ⟨S2048x32, .f32⟩
  | .hbm, ⟨49, _⟩ => ⟨S_, .f32⟩
  | .hbm, ⟨50, _⟩ => ⟨S2048x32, .f32⟩
  | .hbm, ⟨51, _⟩ => ⟨S2048x32, .f32⟩
  | .hbm, ⟨52, _⟩ => ⟨S32x32, .f32⟩
  | .hbm, ⟨53, _⟩ => ⟨S2048x32, .f32⟩
  | .hbm, ⟨54, _⟩ => ⟨S1x32, .f32⟩
  | .hbm, ⟨55, _⟩ => ⟨S2048x32, .f32⟩
  | .hbm, ⟨56, _⟩ => ⟨S2048x32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S2048x32, .f32⟩
  | .hbm, ⟨61, _⟩ => ⟨S2048x32, .f32⟩
  | .hbm, ⟨62, _⟩ => ⟨S_, .f32⟩
  | .hbm, ⟨63, _⟩ => ⟨S2048x32, .f32⟩
  | .hbm, ⟨64, _⟩ => ⟨S2048x32, .f32⟩
  | .hbm, ⟨65, _⟩ => ⟨S32x1, .f32⟩
  | .hbm, ⟨66, _⟩ => ⟨S2048x1, .f32⟩
  | .hbm, ⟨67, _⟩ => ⟨S1x1, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | _, _ => ⟨S2048x40960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_cst_4 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_5 : Ref sig .tc := ⟨.hbm, 57, rfl⟩
abbrev main_cst_6 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_7 : Ref sig .tc := ⟨.hbm, 70, rfl⟩
abbrev main_cst_8 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_v30 : Ref sig .tc := ⟨.hbm, 77, rfl⟩

abbrev nD : Nat := 1
abbrev τ : Topo := Topo.v7x

variable {F : FTy → Type} [FloatOps F]

class Facts₀ : Prop where
  transposes_S256x40960_S40960x256_1_0 : S256x40960.Transposes [1, 0] S40960x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  concatenates_S2048x256_S2048x256_S2048x512_d1 : Shape.Concatenates [S2048x256, S2048x256] S2048x512 1
  transposes_S32x512_S512x32_1_0 : S32x512.Transposes [1, 0] S512x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  bcast_S_S2048x1 : S_.BroadcastsInDim S2048x1 (![] : Fin 0 → Fin S2048x1.rank)
  dot_S2048x40960_S40960x256_S2048x256_1_0_0_1_n_n_wf : DotDims.WF S2048x40960 S40960x256 S2048x256 [1] [0] [0] [1] [] []
  dot_S2048x512_S512x32_S2048x32_1_0_0_1_n_n_wf : DotDims.WF S2048x512 S512x32 S2048x32 [1] [0] [0] [1] [] []
  dot_S2048x32_S32x32_S2048x32_1_0_0_1_n_n_wf : DotDims.WF S2048x32 S32x32 S2048x32 [1] [0] [0] [1] [] []
  dot_S2048x32_S32x1_S2048x1_1_0_0_1_n_n_wf : DotDims.WF S2048x32 S32x1 S2048x1 [1] [0] [0] [1] [] []

variable [Facts₀]

def dot_S2048x40960_S40960x256_S2048x256_1_0_0_1_n_n : DotDims S2048x40960 S40960x256 S2048x256 where
  lhsContracting := [1]
  rhsContracting := [0]
  lhsNonContracting := [0]
  rhsNonContracting := [1]
  lhsBatch := []
  rhsBatch := []
  wf := dot_S2048x40960_S40960x256_S2048x256_1_0_0_1_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.Spec.lean ====
/- The network as a function of its parameter arrays over the extended reals: per board position, two
   feature vectors of 256 clipped affine forms over the 40960 input features, then three clipped affine layers
   (512 → 32 → 32 → 1).  Also the one law of sums the comparison of the two programs rests on: a sum over
   40960 features is the sum over 32 consecutive chunks of 1280. -/
import Idealize.ShloMosaic.PureOps.Ideal
import Idealize.ShloMosaic.PureOps.Ideal.Laws
import Idealize.ShloMosaic.Lib.ValueIdx

noncomputable section

open scoped BigOperators

namespace Cert.Nnue

open Idealize.ShloMosaic Idealize.ShloMosaic.ValueIdx

/-- A rank-2 array of extended reals. -/
abbrev Arr2 (a b : Nat) : Type := (⟨2, ![a, b]⟩ : Shape).Idx → EReal
/-- A rank-1 array of extended reals. -/
abbrev Arr1 (a : Nat) : Type := (⟨1, ![a]⟩ : Shape).Idx → EReal

/-- The clipped ReLU: `x` clamped into `[0, 1]`, as `min 1 (max 0 x)` with the two bounds spelt by their f32 words. -/
def crelu (x : EReal) : EReal :=
  min (Ideal.ofBits .f32 0x3F800000#32) (max (Ideal.ofBits .f32 0x00000000#32) x)

/-- The two perspectives' feature vectors side by side: entries 0–255 the first, 256–511 the second. -/
def cat (fp fo : Fin 256 → EReal) (k : Fin 512) : EReal :=
  if h : k.val < 256 then fp ⟨k.val, h⟩ else fo ⟨k.val - 256, by have := k.isLt; omega⟩

/-- First hidden layer: `crelu (cat · W2ᵀ + b2)`. -/
def hid1 (fp fo : Fin 256 → EReal) (W2 : Arr2 32 512) (b2 : Fin 32 → EReal) (j : Fin 32) : EReal :=
  crelu ((∑ k : Fin 512, cat fp fo k * W2 (ix2 j k)) + b2 j)

/-- Second hidden layer: `crelu (h · W3ᵀ + b3)`. -/
def hid2 (h : Fin 32 → EReal) (W3 : Arr2 32 32) (b3 : Fin 32 → EReal) (j : Fin 32) : EReal :=
  crelu ((∑ k : Fin 32, h k * W3 (ix2 j k)) + b3 j)

/-- Output head: `crelu (h · Woᵀ + bo)`, a single number. -/
def head (h : Fin 32 → EReal) (Wo : Arr2 1 32) (bo : EReal) : EReal :=
  crelu ((∑ k : Fin 32, h k * Wo (ix2 (0 : Fin 1) k)) + bo)

/-- The three layers after the feature transformer, for one board position. -/
def mlp (fp fo : Fin 256 → EReal) (W2 : Arr2 32 512) (b2 : Fin 32 → EReal) (W3 : Arr2 32 32) (b3 : Fin 32 → EReal)
    (Wo : Arr2 1 32) (bo : EReal) : EReal :=
  head (hid2 (hid1 fp fo W2 b2) W3 b3) Wo bo

/-- The inner product of row `r` of `X` with row `j` of `W` over all 40960 input features. -/
def dot (X : Arr2 2048 40960) (W : Arr2 256 40960) (r : Fin 2048) (j : Fin 256) : EReal :=
  ∑ k : Fin 40960, X (ix2 r k) * W (ix2 j k)

/-- Board position `r` of row tile `q` (two tiles of 1024 positions). -/
def row (q : Fin 2) (r : Fin 1024) : Fin 2048 := ⟨q.val * 1024 + r.val, by have := q.isLt; have := r.isLt; omega⟩

/-- Feature `k` of the chunk numbered `s` (32 chunks of 1280 features; the number is taken mod 32, so that the
    definition makes sense for every natural number). -/
def col (s : ℕ) (k : Fin 1280) : Fin 40960 :=
  ⟨s % 32 * 1280 + k.val, by have := k.isLt; have := Nat.mod_lt s (show 0 < 32 by decide); omega⟩

/-- The part of that inner product contributed by chunk `s`. -/
def chunk (X : Arr2 2048 40960) (W : Arr2 256 40960) (r : Fin 2048) (j : Fin 256) (s : ℕ) : EReal :=
  ∑ kk : Fin 1280, X (ix2 r (col s kk)) * W (ix2 j (col s kk))

/-- One feature of one perspective. -/
def feat (X : Arr2 2048 40960) (W : Arr2 256 40960) (b : Arr1 256) (r : Fin 2048) (j : Fin 256) : EReal :=
  crelu (dot X W r j + b (ix1 j))

/-- The network's output for board position `r`. -/
def outRow (X0 X1 : Arr2 2048 40960) (W1p : Arr2 256 40960) (b1p : Arr1 256) (W1o : Arr2 256 40960) (b1o : Arr1 256)
    (W2 : Arr2 32 512) (b2 : Arr1 32) (W3 : Arr2 32 32) (b3 : Arr1 32) (Wo : Arr2 1 32) (bo : Arr1 1) (r : Fin 2048) : EReal :=
  mlp (feat X0 W1p b1p r) (feat X1 W1o b1o r) W2 (fun j => b2 (ix1 j)) W3 (fun j => b3 (ix1 j)) Wo (bo (ix1 (0 : Fin 1)))

/-- The whole result array `[2048, 1]`. -/
def result (X0 X1 : Arr2 2048 40960) (W1p : Arr2 256 40960) (b1p : Arr1 256) (W1o : Arr2 256 40960) (b1o : Arr1 256)
    (W2 : Arr2 32 512) (b2 : Arr1 32) (W3 : Arr2 32 32) (b3 : Arr1 32) (Wo : Arr2 1 32) (bo : Arr1 1) : Arr2 2048 1 :=
  fun i => outRow X0 X1 W1p b1p W1o b1o W2 b2 W3 b3 Wo bo (i 0)

/-! ## A sum over `m · n` terms, chunk by chunk -/

/-- A sum over `Fin (m * n)` is the sum over the `m` consecutive chunks of length `n`. -/
theorem sum_chunks {M : Type*} [AddCommMonoid M] (m n : ℕ) (f : Fin (m * n) → M) :
    ∑ k, f k = ∑ a : Fin m, ∑ b : Fin n, f ⟨a.val * n + b.val, by
      have ha := a.isLt; have hb := b.isLt
      calc a.val * n + b.val < a.val * n + n := by omega
        _ = (a.val + 1) * n := by ring
        _ ≤ m * n := Nat.mul_le_mul_right n ha⟩ := by
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-- The inner product over 40960 features is the sum of its 32 chunks. -/
theorem dot_eq_sum_chunks (X : Arr2 2048 40960) (W : Arr2 256 40960) (r : Fin 2048) (j : Fin 256) :
    dot X W r j = ∑ s ∈ Finset.range 32, chunk X W r j s := by
  unfold dot
  rw [← Fin.sum_univ_eq_sum_range (fun s => chunk X W r j s) 32]
  refine (sum_chunks 32 1280 (fun k : Fin 40960 => X (ix2 r k) * W (ix2 j k))).trans ?_
  refine Finset.sum_congr rfl fun a _ => ?_
  unfold chunk
  refine Finset.sum_congr rfl fun b _ => ?_
  have e : (⟨a.val * 1280 + b.val, by have := a.isLt; have := b.isLt; omega⟩ : Fin 40960) = col a.val b := Fin.ext (by
    have := a.isLt
    show a.val * 1280 + b.val = a.val % 32 * 1280 + b.val
    omega)
  exact congrArg (fun k : Fin 40960 => X (ix2 r k) * W (ix2 j k)) e

/-- A chunk depends only on its number mod 32. -/
theorem chunk_add_mul (X : Arr2 2048 40960) (W : Arr2 256 40960) (r : Fin 2048) (j : Fin 256) (q s : ℕ) :
    chunk X W r j (32 * q + s) = chunk X W r j s := by
  have e : ∀ k, col (32 * q + s) k = col s k := fun k => Fin.ext (by
    show (32 * q + s) % 32 * 1280 + k.val = s % 32 * 1280 + k.val
    rw [Nat.mul_add_mod])
  unfold chunk
  exact Finset.sum_congr rfl fun k _ => by rw [e k]

end Cert.Nnue

end
-- ==== Proof.RefValue.lean ====
/- The reference program read one element at a time over the extended reals: each of its stages at an index is the
   corresponding layer of the network's specification. -/
import proofs.«110844_j86002425135471_2_alg».proof.Proof.Gen.ReferenceIdeal.Read
import proofs.«110844_j86002425135471_2_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.Tactic Idealize.SL.Sem
open Idealize.ShloMosaic.Pipeline (Dat)

open scoped BigOperators

namespace Cert.ReferenceIdeal.RefValue
open Cert.ReferenceIdeal Cert.ReferenceIdeal.Read Idealize.ShloMosaic.ValueIdx Cert.Nnue

/-! ## The feature transformer -/

theorem lidx1 (r : Fin 2048) (j : Fin 256) (k : Fin 40960) : lidx_main_v1 (ix2 r j) k = ix2 r k :=
  funext fun a => Fin.ext (by match a with | ⟨0, _⟩ => rfl | ⟨1, _⟩ => rfl)
theorem ridx1 (r : Fin 2048) (j : Fin 256) (k : Fin 40960) : idx_main_v0 (ridx_main_v1 (ix2 r j) k) = ix2 j k :=
  funext fun a => Fin.ext (by match a with | ⟨0, _⟩ => rfl | ⟨1, _⟩ => rfl)
theorem bidx1 (r : Fin 2048) (j : Fin 256) : idx_main_v2 (idx_main_v3 (ix2 r j)) = ix1 j :=
  funext fun a => Fin.ext (by match a with | ⟨0, _⟩ => rfl)

/-- The first perspective's clipped feature `(r, j)`. -/
theorem featP (x0 : Arr2 2048 40960) (x2 : Arr2 256 40960) (x3 : Arr1 256) (r : Fin 2048) (j : Fin 256) :
    val_main_v5 (F := Ideal) x0 x2 x3 (ix2 r j) = feat x0 x2 x3 r j := by
  rw [val_main_v5_apply, val_main_call0_v4_apply, val_main_call0_v3_apply, val_main_cst_0_apply, val_main_call0_v2_apply,
    val_main_call0_v1_apply, val_main_call0_v0_apply, val_main_cst_apply, val_main_v4_apply, val_main_v1_apply,
    val_main_v3_apply, val_main_v2_apply]
  simp only [val_main_v0_apply, lidx1, ridx1, bidx1]
  rfl

theorem lidx7 (r : Fin 2048) (j : Fin 256) (k : Fin 40960) : lidx_main_v7 (ix2 r j) k = ix2 r k :=
  funext fun a => Fin.ext (by match a with | ⟨0, _⟩ => rfl | ⟨1, _⟩ => rfl)
theorem ridx7 (r : Fin 2048) (j : Fin 256) (k : Fin 40960) : idx_main_v6 (ridx_main_v7 (ix2 r j) k) = ix2 j k :=
  funext fun a => Fin.ext (by match a with | ⟨0, _⟩ => rfl | ⟨1, _⟩ => rfl)
theorem bidx7 (r : Fin 2048) (j : Fin 256) : idx_main_v8 (idx_main_v9 (ix2 r j)) = ix1 j :=
  funext fun a => Fin.ext (by match a with | ⟨0, _⟩ => rfl)

/-- The second perspective's clipped feature `(r, j)`. -/
theorem featO (x1 : Arr2 2048 40960) (x4 : Arr2 256 40960) (x5 : Arr1 256) (r : Fin 2048) (j : Fin 256) :
    val_main_v11 (F := Ideal) x1 x4 x5 (ix2 r j) = feat x1 x4 x5 r j := by
  rw [val_main_v11_apply, val_main_call1_v4_apply, val_main_call1_v3_apply, val_main_cst_2_apply, val_main_call1_v2_apply,
    val_main_call1_v1_apply, val_main_call1_v0_apply, val_main_cst_1_apply, val_main_v10_apply, val_main_v7_apply,
    val_main_v9_apply, val_main_v8_apply]
  simp only [val_main_v6_apply, lidx7, ridx7, bidx7]
  rfl

/-! ## The layers after it -/

/-- The two feature vectors joined, at `(r, k)`. -/
theorem joined (x0 x1 : Arr2 2048 40960) (x2 : Arr2 256 40960) (x3 : Arr1 256) (x4 : Arr2 256 40960) (x5 : Arr1 256) (r : Fin 2048) (k : Fin 512) :
    val_main_v12 (F := Ideal) x0 x1 x2 x3 x4 x5 (ix2 r k) = cat (feat x0 x2 x3 r) (feat x1 x4 x5 r) k := by
  unfold val_main_v12 cat
  split
  · next h =>
    refine (concatenate_pair_apply_left 1 _ _ Facts₀.concatenates_S2048x256_S2048x256_S2048x512_d1 (ix2 r k) rfl (ix2 r ⟨k.val, h⟩)
      (fun b => by match b with | ⟨0, _⟩ => rfl | ⟨1, _⟩ => rfl)).trans ?_
    exact featP x0 x2 x3 r ⟨k.val, h⟩
  · next h =>
    refine (concatenate_pair_apply_right 1 _ _ Facts₀.concatenates_S2048x256_S2048x256_S2048x512_d1 (ix2 r k) rfl rfl
      (ix2 r ⟨k.val - 256, by have := k.isLt; omega⟩)
      (fun b hb => by match b with | ⟨0, _⟩ => rfl | ⟨1, _⟩ => exact absurd rfl hb)
      (by show (k.val - 256) + 256 = k.val; omega)).trans ?_
    exact featO x1 x4 x5 r ⟨k.val - 256, by have := k.isLt; omega⟩

theorem lidx14 (r : Fin 2048) (j : Fin 32) (k : Fin 512) : lidx_main_v14 (ix2 r j) k = ix2 r k :=
  funext fun a => Fin.ext (by match a with | ⟨0, _⟩ => rfl | ⟨1, _⟩ => rfl)
theorem ridx14 (r : Fin 2048) (j : Fin 32) (k : Fin 512) : idx_main_v13 (ridx_main_v14 (ix2 r j) k) = ix2 j k :=
  funext fun a => Fin.ext (by match a with | ⟨0, _⟩ => rfl | ⟨1, _⟩ => rfl)
theorem bidx14 (r : Fin 2048) (j : Fin 32) : idx_main_v15 (idx_main_v16 (ix2 r j)) = ix1 j :=
  funext fun a => Fin.ext (by match a with | ⟨0, _⟩ => rfl)

/-- The first hidden layer at `(r, j)`. -/
theorem hidden1 (x0 x1 : Arr2 2048 40960) (x2 : Arr2 256 40960) (x3 : Arr1 256) (x4 : Arr2 256 40960) (x5 : Arr1 256) (x6 : Arr2 32 512) (x7 : Arr1 32) (r : Fin 2048) (j : Fin 32) :
    val_main_v18 (F := Ideal) x0 x1 x2 x3 x4 x5 x6 x7 (ix2 r j)
      = hid1 (feat x0 x2 x3 r) (feat x1 x4 x5 r) x6 (fun a => x7 (ix1 a)) j := by
  rw [val_main_v18_apply, val_main_call2_v4_apply, val_main_call2_v3_apply, val_main_cst_4_apply, val_main_call2_v2_apply,
    val_main_call2_v1_apply, val_main_call2_v0_apply, val_main_cst_3_apply, val_main_v17_apply, val_main_v14_apply,
    val_main_v16_apply, val_main_v15_apply]
  simp only [val_main_v13_apply, lidx14, ridx14, bidx14, joined]
  rfl

theorem lidx20 (r : Fin 2048) (j : Fin 32) (k : Fin 32) : lidx_main_v20 (ix2 r j) k = ix2 r k :=
  funext fun a => Fin.ext (by match a with | ⟨0, _⟩ => rfl | ⟨1, _⟩ => rfl)
theorem ridx20 (r : Fin 2048) (j : Fin 32) (k : Fin 32) : idx_main_v19 (ridx_main_v20 (ix2 r j) k) = ix2 j k :=
  funext fun a => Fin.ext (by match a with | ⟨0, _⟩ => rfl | ⟨1, _⟩ => rfl)
theorem bidx20 (r : Fin 2048) (j : Fin 32) : idx_main_v21 (idx_main_v22 (ix2 r j)) = ix1 j :=
  funext fun a => Fin.ext (by match a with | ⟨0, _⟩ => rfl)

/-- The second hidden layer at `(r, j)`. -/
theorem hidden2 (x0 x1 : Arr2 2048 40960) (x2 : Arr2 256 40960) (x3 : Arr1 256) (x4 : Arr2 256 40960) (x5 : Arr1 256) (x6 : Arr2 32 512) (x7 : Arr1 32) (x8 : Arr2 32 32) (x9 : Arr1 32) (r : Fin 2048) (j : Fin 32) :
    val_main_v24 (F := Ideal) x0 x1 x2 x3 x4 x5 x6 x7 x8 x9 (ix2 r j)
      = hid2 (hid1 (feat x0 x2 x3 r) (feat x1 x4 x5 r) x6 (fun a => x7 (ix1 a))) x8 (fun a => x9 (ix1 a)) j := by
  rw [val_main_v24_apply, val_main_call3_v4_apply, val_main_call3_v3_apply, val_main_cst_6_apply, val_main_call3_v2_apply,
    val_main_call3_v1_apply, val_main_call3_v0_apply, val_main_cst_5_apply, val_main_v23_apply, val_main_v20_apply,
    val_main_v22_apply, val_main_v21_apply]
  simp only [val_main_v19_apply, lidx20, ridx20, bidx20, hidden1]
  rfl

theorem lidx26 (r : Fin 2048) (k : Fin 32) : lidx_main_v26 (ix2 r (0 : Fin 1)) k = ix2 r k :=
  funext fun a => Fin.ext (by match a with | ⟨0, _⟩ => rfl | ⟨1, _⟩ => rfl)
theorem ridx26 (r : Fin 2048) (k : Fin 32) : idx_main_v25 (ridx_main_v26 (ix2 r (0 : Fin 1)) k) = ix2 (0 : Fin 1) k :=
  funext fun a => Fin.ext (by match a with | ⟨0, _⟩ => rfl | ⟨1, _⟩ => rfl)
theorem bidx26 (r : Fin 2048) : idx_main_v27 (idx_main_v28 (ix2 r (0 : Fin 1))) = ix1 (0 : Fin 1) :=
  funext fun a => Fin.ext (by match a with | ⟨0, _⟩ => rfl)

/-- The reference's result array is the specification. -/
theorem result_eq (x0 x1 : Arr2 2048 40960) (x2 : Arr2 256 40960) (x3 : Arr1 256) (x4 : Arr2 256 40960) (x5 : Arr1 256) (x6 : Arr2 32 512) (x7 : Arr1 32) (x8 : Arr2 32 32) (x9 : Arr1 32) (x10 : Arr2 1 32) (x11 : Arr1 1) :
    val_main_v30 (F := Ideal) x0 x1 x2 x3 x4 x5 x6 x7 x8 x9 x10 x11 = result x0 x1 x2 x3 x4 x5 x6 x7 x8 x9 x10 x11 := by
  funext i
  obtain ⟨r, u, rfl⟩ : ∃ (r : Fin 2048) (u : Fin 1), i = ix2 r u := ⟨i 0, i 1, eq_ix2 i⟩
  obtain rfl : u = 0 := Subsingleton.elim _ _
  rw [val_main_v30_apply, val_main_call4_v4_apply, val_main_call4_v3_apply, val_main_cst_8_apply, val_main_call4_v2_apply,
    val_main_call4_v1_apply, val_main_call4_v0_apply, val_main_cst_7_apply, val_main_v29_apply, val_main_v26_apply,
    val_main_v28_apply, val_main_v27_apply]
  simp only [val_main_v25_apply, lidx26, ridx26, bidx26, hidden2]
  rfl

end Cert.ReferenceIdeal.RefValue
end
-- ==== Proof.Pieces.lean ====
/- What one grid point leaves in the two feature-transformer accumulators and, at the last reduction step of a
   row tile, in the output block: each is the pure arithmetic of the body applied to the blocks the point was
   given and to what the accumulators held before it. -/
import proofs.«110844_j86002425135471_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Pieces
open Cert.KernelIdeal Cert.KernelIdeal.Gen
variable {F : FTy → Type} [FloatOps F]

/-- Every offset in this kernel's loads and stores is zero on both axes. -/
theorem hz : (![0, 0] : Fin 2 → Nat) = fun _ => 0 := funext fun a => by fin_cases a <;> rfl

/-! ## The accumulators after one grid point

At the first step of a row tile the accumulator is reset to the zero block and the step's product is added
to that; at every later step the product is added to what the step before left. -/

theorem accP_first (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S256x1280 .f32) (harg4 : arg4.IsWhole) (arg5 : Memref sig .tc .vmem S256x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x512 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : cond0_0 i) (hc1 : ¬cond0_1 i) (x0 : Vec F S1024x1280 .f32) (x1 : Vec F S1024x1280 .f32) (x2 : Vec F S256x1280 .f32) (x3 : Vec F S256x1280 .f32) (x4 : Vec F S1x256 .f32) (x5 : Vec F S1x256 .f32) (x6 : Vec F S32x512 .f32) (x7 : Vec F S1x32 .f32) (x8 : Vec F S32x32 .f32) (x9 : Vec F S1x32 .f32) (x10 : Vec F S1x32 .f32) (x11 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 = k0_pay3 x0 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero (S := S1024x256) hz]
  simp only [View.readCov_unit_zero (S := S1024x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1280) hz, View.ld_unit_zero (S := S256x1280) hz, View.ld_unit_zero (S := S1x256) hz, View.ld_unit_zero (S := S32x512) hz, View.ld_unit_zero (S := S1x32) hz, View.ld_unit_zero (S := S32x32) hz, View.ld_unit_zero (S := S1x1) hz, View.ld_unit_zero (S := S1024x1) hz, View.ld_unit_zero (S := S1024x256) hz]

theorem accO_first (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S256x1280 .f32) (harg4 : arg4.IsWhole) (arg5 : Memref sig .tc .vmem S256x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x512 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : cond0_0 i) (hc1 : ¬cond0_1 i) (x0 : Vec F S1024x1280 .f32) (x1 : Vec F S1024x1280 .f32) (x2 : Vec F S256x1280 .f32) (x3 : Vec F S256x1280 .f32) (x4 : Vec F S1x256 .f32) (x5 : Vec F S1x256 .f32) (x6 : Vec F S32x512 .f32) (x7 : Vec F S1x32 .f32) (x8 : Vec F S32x32 .f32) (x9 : Vec F S1x32 .f32) (x10 : Vec F S1x32 .f32) (x11 : Vec F S1x1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 = k0_pay4 x1 x3 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero (S := S1024x256) hz]
  simp only [View.readCov_unit_zero (S := S1024x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1280) hz, View.ld_unit_zero (S := S256x1280) hz, View.ld_unit_zero (S := S1x256) hz, View.ld_unit_zero (S := S32x512) hz, View.ld_unit_zero (S := S1x32) hz, View.ld_unit_zero (S := S32x32) hz, View.ld_unit_zero (S := S1x1) hz, View.ld_unit_zero (S := S1024x1) hz, View.ld_unit_zero (S := S1024x256) hz]

theorem accP_mid (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S256x1280 .f32) (harg4 : arg4.IsWhole) (arg5 : Memref sig .tc .vmem S256x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x512 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (x0 : Vec F S1024x1280 .f32) (x1 : Vec F S1024x1280 .f32) (x2 : Vec F S256x1280 .f32) (x3 : Vec F S256x1280 .f32) (x4 : Vec F S1x256 .f32) (x5 : Vec F S1x256 .f32) (x6 : Vec F S32x512 .f32) (x7 : Vec F S1x32 .f32) (x8 : Vec F S32x32 .f32) (x9 : Vec F S1x32 .f32) (x10 : Vec F S1x32 .f32) (x11 : Vec F S1x1 .f32) (xs0 : Vec F S1024x256 .f32) (xs1 : Vec F S1024x256 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay3 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_B
  dsimp only
  sl_unfold_words
  rw [View.canon_cons_unit_zero (S := S1024x256) hz]
  simp only [View.readCov_unit_zero (S := S1024x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1280) hz, View.ld_unit_zero (S := S256x1280) hz, View.ld_unit_zero (S := S1x256) hz, View.ld_unit_zero (S := S32x512) hz, View.ld_unit_zero (S := S1x32) hz, View.ld_unit_zero (S := S32x32) hz, View.ld_unit_zero (S := S1x1) hz, View.ld_unit_zero (S := S1024x1) hz, View.ld_unit_zero (S := S1024x256) hz]

theorem accO_mid (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S256x1280 .f32) (harg4 : arg4.IsWhole) (arg5 : Memref sig .tc .vmem S256x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x512 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : ¬cond0_1 i) (x0 : Vec F S1024x1280 .f32) (x1 : Vec F S1024x1280 .f32) (x2 : Vec F S256x1280 .f32) (x3 : Vec F S256x1280 .f32) (x4 : Vec F S1x256 .f32) (x5 : Vec F S1x256 .f32) (x6 : Vec F S32x512 .f32) (x7 : Vec F S1x32 .f32) (x8 : Vec F S32x32 .f32) (x9 : Vec F S1x32 .f32) (x10 : Vec F S1x32 .f32) (x11 : Vec F S1x1 .f32) (xs0 : Vec F S1024x256 .f32) (xs1 : Vec F S1024x256 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay4 x1 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_B
  dsimp only
  sl_unfold_words
  rw [View.canon_cons_unit_zero (S := S1024x256) hz]
  simp only [View.readCov_unit_zero (S := S1024x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1280) hz, View.ld_unit_zero (S := S256x1280) hz, View.ld_unit_zero (S := S1x256) hz, View.ld_unit_zero (S := S32x512) hz, View.ld_unit_zero (S := S1x32) hz, View.ld_unit_zero (S := S32x32) hz, View.ld_unit_zero (S := S1x1) hz, View.ld_unit_zero (S := S1024x1) hz, View.ld_unit_zero (S := S1024x256) hz]

theorem accP_last (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S256x1280 .f32) (harg4 : arg4.IsWhole) (arg5 : Memref sig .tc .vmem S256x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x512 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : cond0_1 i) (x0 : Vec F S1024x1280 .f32) (x1 : Vec F S1024x1280 .f32) (x2 : Vec F S256x1280 .f32) (x3 : Vec F S256x1280 .f32) (x4 : Vec F S1x256 .f32) (x5 : Vec F S1x256 .f32) (x6 : Vec F S32x512 .f32) (x7 : Vec F S1x32 .f32) (x8 : Vec F S32x32 .f32) (x9 : Vec F S1x32 .f32) (x10 : Vec F S1x32 .f32) (x11 : Vec F S1x1 .f32) (xs0 : Vec F S1024x256 .f32) (xs1 : Vec F S1024x256 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay3 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_cons_unit_zero (S := S1024x256) hz]
  simp only [View.readCov_unit_zero (S := S1024x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1280) hz, View.ld_unit_zero (S := S256x1280) hz, View.ld_unit_zero (S := S1x256) hz, View.ld_unit_zero (S := S32x512) hz, View.ld_unit_zero (S := S1x32) hz, View.ld_unit_zero (S := S32x32) hz, View.ld_unit_zero (S := S1x1) hz, View.ld_unit_zero (S := S1024x1) hz, View.ld_unit_zero (S := S1024x256) hz]

theorem accO_last (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S256x1280 .f32) (harg4 : arg4.IsWhole) (arg5 : Memref sig .tc .vmem S256x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x512 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : cond0_1 i) (x0 : Vec F S1024x1280 .f32) (x1 : Vec F S1024x1280 .f32) (x2 : Vec F S256x1280 .f32) (x3 : Vec F S256x1280 .f32) (x4 : Vec F S1x256 .f32) (x5 : Vec F S1x256 .f32) (x6 : Vec F S32x512 .f32) (x7 : Vec F S1x32 .f32) (x8 : Vec F S32x32 .f32) (x9 : Vec F S1x32 .f32) (x10 : Vec F S1x32 .f32) (x11 : Vec F S1x1 .f32) (xs0 : Vec F S1024x256 .f32) (xs1 : Vec F S1024x256 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay4 x1 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_cons_unit_zero (S := S1024x256) hz]
  simp only [View.readCov_unit_zero (S := S1024x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1280) hz, View.ld_unit_zero (S := S256x1280) hz, View.ld_unit_zero (S := S1x256) hz, View.ld_unit_zero (S := S32x512) hz, View.ld_unit_zero (S := S1x32) hz, View.ld_unit_zero (S := S32x32) hz, View.ld_unit_zero (S := S1x1) hz, View.ld_unit_zero (S := S1024x1) hz, View.ld_unit_zero (S := S1024x256) hz]

/-! ## The output block at the last step of a row tile

The head of the network is applied to the two accumulators as that very step leaves them. -/

theorem out_last (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S256x1280 .f32) (harg4 : arg4.IsWhole) (arg5 : Memref sig .tc .vmem S256x1280 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x512 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole) (hc0 : ¬cond0_0 i) (hc1 : cond0_1 i) (x0 : Vec F S1024x1280 .f32) (x1 : Vec F S1024x1280 .f32) (x2 : Vec F S256x1280 .f32) (x3 : Vec F S256x1280 .f32) (x4 : Vec F S1x256 .f32) (x5 : Vec F S1x256 .f32) (x6 : Vec F S32x512 .f32) (x7 : Vec F S1x32 .f32) (x8 : Vec F S32x32 .f32) (x9 : Vec F S1x32 .f32) (x10 : Vec F S1x32 .f32) (x11 : Vec F S1x1 .f32) (xs0 : Vec F S1024x256 .f32) (xs1 : Vec F S1024x256 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay5 (k0_pay6 (k0_pay3 x0 x2 xs0) x4 (k0_pay4 x1 x3 xs1) x5 x6 x7 x8) x9 x10 x11 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_cons_unit_zero (S := S1024x1) hz]
  simp only [View.readCov_unit_zero (S := S1024x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1280) hz, View.ld_unit_zero (S := S256x1280) hz, View.ld_unit_zero (S := S1x256) hz, View.ld_unit_zero (S := S32x512) hz, View.ld_unit_zero (S := S1x32) hz, View.ld_unit_zero (S := S32x32) hz, View.ld_unit_zero (S := S1x1) hz, View.ld_unit_zero (S := S1024x1) hz, View.ld_unit_zero (S := S1024x256) hz]

end Cert.KernelIdeal.Pieces
end
-- ==== Proof.Payload.lean ====
/- The body's arithmetic read one element at a time over the extended reals: a matrix product into a zero
   accumulator is a plain sum of products along the contracted axis; a step of the feature transformer adds
   one chunk's sum of products to the accumulator; and the last step's output is the three clipped layers
   applied to the accumulators plus their biases. -/
import proofs.«110844_j86002425135471_2_alg».proof.Proof.Gen.KernelIdeal.Skeleton
import proofs.«110844_j86002425135471_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.Tactic Idealize.SL.Sem
open Idealize.ShloMosaic.Pipeline (Dat)

open scoped BigOperators

namespace Cert.KernelIdeal.Payload
open Cert.KernelIdeal Cert.KernelIdeal.Gen Idealize.ShloMosaic.ValueIdx Cert.Nnue

/-! ## The three matrix products -/

theorem mm_feat_lhs0 (i : S1024x256.Idx) (q : dot_S1024x1280_S256x1280_S1024x256_1_1_0_0_n_n.contr.Idx) : (dot_S1024x1280_S256x1280_S1024x256_1_1_0_0_n_n.lhsIdx i q 0).val = (i 0).val := by
  unfold DotDims.lhsIdx
  rw [dif_neg (show ¬(0 : Fin S1024x1280.rank) ∈ dot_S1024x1280_S256x1280_S1024x256_1_1_0_0_n_n.lhsBatch by decide),
    dif_pos (show (0 : Fin S1024x1280.rank) ∈ dot_S1024x1280_S256x1280_S1024x256_1_1_0_0_n_n.lhsNonContracting by decide)]
  rfl
theorem mm_feat_rhs0 (i : S1024x256.Idx) (q : dot_S1024x1280_S256x1280_S1024x256_1_1_0_0_n_n.contr.Idx) : (dot_S1024x1280_S256x1280_S1024x256_1_1_0_0_n_n.rhsIdx i q 0).val = (i 1).val := by
  unfold DotDims.rhsIdx
  rw [dif_neg (show ¬(0 : Fin S256x1280.rank) ∈ dot_S1024x1280_S256x1280_S1024x256_1_1_0_0_n_n.rhsBatch by decide),
    dif_pos (show (0 : Fin S256x1280.rank) ∈ dot_S1024x1280_S256x1280_S1024x256_1_1_0_0_n_n.rhsNonContracting by decide)]
  rfl
/-- A tile of inputs times a tile of feature weights (both contracted along their 1280 columns), into zero. -/
theorem mm_feat (lhs : FVec Ideal S1024x1280 .bf16) (rhs : FVec Ideal S256x1280 .bf16) (r : Fin 1024) (j : Fin 256) :
    matmul dot_S1024x1280_S256x1280_S1024x256_1_1_0_0_n_n none lhs rhs (constant S1024x256 .f32 0x00000000#32) (ix2 r j)
      = ∑ k : Fin 1280, lhs (ix2 r k) * rhs (ix2 j k) := by
  simp only [matmul]
  rw [Ideal.matmul_constant_zero_apply, ← Equiv.sum_comp (contrEquiv1 dot_S1024x1280_S256x1280_S1024x256_1_1_0_0_n_n 1280 rfl rfl).symm]
  refine Finset.sum_congr rfl fun k _ => ?_
  have hk := contrEquiv1_symm_val dot_S1024x1280_S256x1280_S1024x256_1_1_0_0_n_n 1280 rfl rfl k
  have el : dot_S1024x1280_S256x1280_S1024x256_1_1_0_0_n_n.lhsIdx (ix2 r j) ((contrEquiv1 dot_S1024x1280_S256x1280_S1024x256_1_1_0_0_n_n 1280 rfl rfl).symm k) = ix2 r k :=
    funext fun a => Fin.ext (by
      match a with
      | ⟨0, _⟩ => exact mm_feat_lhs0 _ _
      | ⟨1, _⟩ => exact (dot_S1024x1280_S256x1280_S1024x256_1_1_0_0_n_n.lhsIdx_val_of_single rfl (ix2 r j) _).trans hk)
  have er : dot_S1024x1280_S256x1280_S1024x256_1_1_0_0_n_n.rhsIdx (ix2 r j) ((contrEquiv1 dot_S1024x1280_S256x1280_S1024x256_1_1_0_0_n_n 1280 rfl rfl).symm k) = ix2 j k :=
    funext fun a => Fin.ext (by
      match a with
      | ⟨0, _⟩ => exact mm_feat_rhs0 _ _
      | ⟨1, _⟩ => exact (dot_S1024x1280_S256x1280_S1024x256_1_1_0_0_n_n.rhsIdx_val_of_single rfl (ix2 r j) _).trans hk)
  rw [el, er]

theorem mm_hid1_lhs0 (i : S1024x32.Idx) (q : dot_S1024x512_S32x512_S1024x32_1_1_0_0_n_n.contr.Idx) : (dot_S1024x512_S32x512_S1024x32_1_1_0_0_n_n.lhsIdx i q 0).val = (i 0).val := by
  unfold DotDims.lhsIdx
  rw [dif_neg (show ¬(0 : Fin S1024x512.rank) ∈ dot_S1024x512_S32x512_S1024x32_1_1_0_0_n_n.lhsBatch by decide),
    dif_pos (show (0 : Fin S1024x512.rank) ∈ dot_S1024x512_S32x512_S1024x32_1_1_0_0_n_n.lhsNonContracting by decide)]
  rfl
theorem mm_hid1_rhs0 (i : S1024x32.Idx) (q : dot_S1024x512_S32x512_S1024x32_1_1_0_0_n_n.contr.Idx) : (dot_S1024x512_S32x512_S1024x32_1_1_0_0_n_n.rhsIdx i q 0).val = (i 1).val := by
  unfold DotDims.rhsIdx
  rw [dif_neg (show ¬(0 : Fin S32x512.rank) ∈ dot_S1024x512_S32x512_S1024x32_1_1_0_0_n_n.rhsBatch by decide),
    dif_pos (show (0 : Fin S32x512.rank) ∈ dot_S1024x512_S32x512_S1024x32_1_1_0_0_n_n.rhsNonContracting by decide)]
  rfl
/-- The concatenated features times the first hidden layer's weights, into zero. -/
theorem mm_hid1 (lhs : FVec Ideal S1024x512 .bf16) (rhs : FVec Ideal S32x512 .bf16) (r : Fin 1024) (j : Fin 32) :
    matmul dot_S1024x512_S32x512_S1024x32_1_1_0_0_n_n none lhs rhs (constant S1024x32 .f32 0x00000000#32) (ix2 r j)
      = ∑ k : Fin 512, lhs (ix2 r k) * rhs (ix2 j k) := by
  simp only [matmul]
  rw [Ideal.matmul_constant_zero_apply, ← Equiv.sum_comp (contrEquiv1 dot_S1024x512_S32x512_S1024x32_1_1_0_0_n_n 512 rfl rfl).symm]
  refine Finset.sum_congr rfl fun k _ => ?_
  have hk := contrEquiv1_symm_val dot_S1024x512_S32x512_S1024x32_1_1_0_0_n_n 512 rfl rfl k
  have el : dot_S1024x512_S32x512_S1024x32_1_1_0_0_n_n.lhsIdx (ix2 r j) ((contrEquiv1 dot_S1024x512_S32x512_S1024x32_1_1_0_0_n_n 512 rfl rfl).symm k) = ix2 r k :=
    funext fun a => Fin.ext (by
      match a with
      | ⟨0, _⟩ => exact mm_hid1_lhs0 _ _
      | ⟨1, _⟩ => exact (dot_S1024x512_S32x512_S1024x32_1_1_0_0_n_n.lhsIdx_val_of_single rfl (ix2 r j) _).trans hk)
  have er : dot_S1024x512_S32x512_S1024x32_1_1_0_0_n_n.rhsIdx (ix2 r j) ((contrEquiv1 dot_S1024x512_S32x512_S1024x32_1_1_0_0_n_n 512 rfl rfl).symm k) = ix2 j k :=
    funext fun a => Fin.ext (by
      match a with
      | ⟨0, _⟩ => exact mm_hid1_rhs0 _ _
      | ⟨1, _⟩ => exact (dot_S1024x512_S32x512_S1024x32_1_1_0_0_n_n.rhsIdx_val_of_single rfl (ix2 r j) _).trans hk)
  rw [el, er]

theorem mm_hid2_lhs0 (i : S1024x32.Idx) (q : dot_S1024x32_S32x32_S1024x32_1_1_0_0_n_n.contr.Idx) : (dot_S1024x32_S32x32_S1024x32_1_1_0_0_n_n.lhsIdx i q 0).val = (i 0).val := by
  unfold DotDims.lhsIdx
  rw [dif_neg (show ¬(0 : Fin S1024x32.rank) ∈ dot_S1024x32_S32x32_S1024x32_1_1_0_0_n_n.lhsBatch by decide),
    dif_pos (show (0 : Fin S1024x32.rank) ∈ dot_S1024x32_S32x32_S1024x32_1_1_0_0_n_n.lhsNonContracting by decide)]
  rfl
theorem mm_hid2_rhs0 (i : S1024x32.Idx) (q : dot_S1024x32_S32x32_S1024x32_1_1_0_0_n_n.contr.Idx) : (dot_S1024x32_S32x32_S1024x32_1_1_0_0_n_n.rhsIdx i q 0).val = (i 1).val := by
  unfold DotDims.rhsIdx
  rw [dif_neg (show ¬(0 : Fin S32x32.rank) ∈ dot_S1024x32_S32x32_S1024x32_1_1_0_0_n_n.rhsBatch by decide),
    dif_pos (show (0 : Fin S32x32.rank) ∈ dot_S1024x32_S32x32_S1024x32_1_1_0_0_n_n.rhsNonContracting by decide)]
  rfl
/-- The first hidden layer times the second's weights, into zero. -/
theorem mm_hid2 (lhs : FVec Ideal S1024x32 .bf16) (rhs : FVec Ideal S32x32 .bf16) (r : Fin 1024) (j : Fin 32) :
    matmul dot_S1024x32_S32x32_S1024x32_1_1_0_0_n_n none lhs rhs (constant S1024x32 .f32 0x00000000#32) (ix2 r j)
      = ∑ k : Fin 32, lhs (ix2 r k) * rhs (ix2 j k) := by
  simp only [matmul]
  rw [Ideal.matmul_constant_zero_apply, ← Equiv.sum_comp (contrEquiv1 dot_S1024x32_S32x32_S1024x32_1_1_0_0_n_n 32 rfl rfl).symm]
  refine Finset.sum_congr rfl fun k _ => ?_
  have hk := contrEquiv1_symm_val dot_S1024x32_S32x32_S1024x32_1_1_0_0_n_n 32 rfl rfl k
  have el : dot_S1024x32_S32x32_S1024x32_1_1_0_0_n_n.lhsIdx (ix2 r j) ((contrEquiv1 dot_S1024x32_S32x32_S1024x32_1_1_0_0_n_n 32 rfl rfl).symm k) = ix2 r k :=
    funext fun a => Fin.ext (by
      match a with
      | ⟨0, _⟩ => exact mm_hid2_lhs0 _ _
      | ⟨1, _⟩ => exact (dot_S1024x32_S32x32_S1024x32_1_1_0_0_n_n.lhsIdx_val_of_single rfl (ix2 r j) _).trans hk)
  have er : dot_S1024x32_S32x32_S1024x32_1_1_0_0_n_n.rhsIdx (ix2 r j) ((contrEquiv1 dot_S1024x32_S32x32_S1024x32_1_1_0_0_n_n 32 rfl rfl).symm k) = ix2 j k :=
    funext fun a => Fin.ext (by
      match a with
      | ⟨0, _⟩ => exact mm_hid2_rhs0 _ _
      | ⟨1, _⟩ => exact (dot_S1024x32_S32x32_S1024x32_1_1_0_0_n_n.rhsIdx_val_of_single rfl (ix2 r j) _).trans hk)
  rw [el, er]

/-! ## Layout steps read at an element -/

/-- A `[1, b]` row (passed through two trivial reshapes) broadcast over `a` rows reads, at `(p, c)`, the row's entry `c`. -/
theorem biasRow_apply {α : Type} {a b : ℕ} (v : (⟨2, ![1, b]⟩ : Shape).Idx → α)
    (h1 h2 : (⟨2, ![1, b]⟩ : Shape).ShapeCasts ⟨2, ![1, b]⟩) (h3 : (⟨2, ![1, b]⟩ : Shape).Broadcasts ⟨2, ![a, b]⟩)
    (p : Fin a) (c : Fin b) :
    broadcastTo ⟨2, ![a, b]⟩ (shapeCast ⟨2, ![1, b]⟩ (shapeCast ⟨2, ![1, b]⟩ v h1) h2) h3 (ix2 p c) = v (ix2 (0 : Fin 1) c) := by
  rw [shapeCast_self, shapeCast_self]
  exact broadcastTo_1b_ab_apply v h3 p c

/-- A length-`a` vector reshaped to a column `[a, 1]` reads, at `(p, u)`, the vector's entry `p`. -/
theorem column_apply {α : Type} {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- The two perspectives' clipped features joined along the feature axis read, at `(r, k)`, entry `k` of the joined row. -/
theorem cat_apply (x1 x2 : FVec Ideal S1024x256 .f32) (r : Fin 1024) (k : Fin 512) :
    concatenate S1024x512 1 [⟨S1024x256, x1⟩, ⟨S1024x256, x2⟩] concatenates_S1024x256_S1024x256_S1024x512_d1 (ix2 r k)
      = cat (fun a => x1 (ix2 r a)) (fun a => x2 (ix2 r a)) k := by
  unfold cat
  split
  · next h =>
    exact concatenate_pair_apply_left 1 x1 x2 concatenates_S1024x256_S1024x256_S1024x512_d1 (ix2 r k) rfl (ix2 r ⟨k.val, h⟩)
      (fun b => by match b with | ⟨0, _⟩ => rfl | ⟨1, _⟩ => rfl)
  · next h =>
    exact concatenate_pair_apply_right 1 x1 x2 concatenates_S1024x256_S1024x256_S1024x512_d1 (ix2 r k) rfl rfl
      (ix2 r ⟨k.val - 256, by have := k.isLt; omega⟩)
      (fun b hb => by match b with | ⟨0, _⟩ => rfl | ⟨1, _⟩ => exact absurd rfl hb)
      (by show (k.val - 256) + 256 = k.val; omega)

/-- A sum along the 32 columns of a `[1024, 32]` block. -/
theorem rowSum_apply (src : FVec Ideal S1024x32 .f32) (hφ : FKind.Formats .f32)
    (hacc : (0x00000000#32 : BitVec 32) = FKind.add.neutral .f32 hφ) (r : Fin 1024) :
    multiReduction .add [1] S1024 src 0x00000000#32 reduces_S1024x32_S1024 hφ hacc (ix1 r) = ∑ k : Fin 32, src (ix2 r k) := by
  refine (Ideal.multiReduction_add_single src 0x00000000#32 reduces_S1024x32_S1024 hφ hacc (ix1 r)).trans ?_
  refine Finset.sum_congr rfl fun k _ => congrArg src ?_
  funext a
  match a with
  | ⟨0, _⟩ => rfl
  | ⟨1, _⟩ => rfl

/-! ## The accumulators -/

/-- The reset block is zero everywhere. -/
theorem zeroP_apply (y : S1024x256.Idx) : k0_pay1 (F := Ideal) y = 0 := by
  unfold k0_pay1
  rw [shapeCast_self]
  exact Ideal.ofBits_zero_f32

/-- The other accumulator's reset block likewise. -/
theorem zeroO_apply (y : S1024x256.Idx) : k0_pay2 (F := Ideal) y = 0 := by
  unfold k0_pay2
  rw [shapeCast_self]
  exact Ideal.ofBits_zero_f32

/-- One step of the first accumulator: what it held plus the chunk's sum of products. -/
theorem accP_apply (v3 : Vec Ideal S1024x1280 .f32) (v7 : Vec Ideal S256x1280 .f32) (v11 : Vec Ideal S1024x256 .f32)
    (r : Fin 1024) (j : Fin 256) :
    k0_pay3 v3 v7 v11 (ix2 r j) = v11 (ix2 r j) + ∑ k : Fin 1280, v3 (ix2 r k) * v7 (ix2 j k) := by
  unfold k0_pay3
  rw [shapeCast_self]
  exact congrArg (v11 (ix2 r j) + ·) (mm_feat _ _ r j)

/-- One step of the second accumulator. -/
theorem accO_apply (v5 : Vec Ideal S1024x1280 .f32) (v9 : Vec Ideal S256x1280 .f32) (v17 : Vec Ideal S1024x256 .f32)
    (r : Fin 1024) (j : Fin 256) :
    k0_pay4 v5 v9 v17 (ix2 r j) = v17 (ix2 r j) + ∑ k : Fin 1280, v5 (ix2 r k) * v9 (ix2 j k) := by
  unfold k0_pay4
  rw [shapeCast_self]
  exact congrArg (v17 (ix2 r j) + ·) (mm_feat _ _ r j)

/-! ## The layers after the feature transformer -/

/-- Before its own clipping, the second hidden layer at `(r, j)`: the first hidden layer of row `r` — computed from the two
    accumulators plus their biases, clipped and joined — against row `j` of the second layer's weights. -/
theorem hidden_apply (v26 : Vec Ideal S1024x256 .f32) (v27 : Vec Ideal S1x256 .f32) (v36 : Vec Ideal S1024x256 .f32)
    (v37 : Vec Ideal S1x256 .f32) (v48 : Vec Ideal S32x512 .f32) (v51 : Vec Ideal S1x32 .f32) (v61 : Vec Ideal S32x32 .f32)
    (r : Fin 1024) (j : Fin 32) :
    k0_pay6 v26 v27 v36 v37 v48 v51 v61 (ix2 r j)
      = ∑ k : Fin 32, hid1 (fun a => crelu (v26 (ix2 r a) + v27 (ix2 (0 : Fin 1) a)))
          (fun a => crelu (v36 (ix2 r a) + v37 (ix2 (0 : Fin 1) a))) v48 (fun a => v51 (ix2 (0 : Fin 1) a)) k * v61 (ix2 j k) := by
  unfold k0_pay6
  refine (mm_hid2 _ _ r j).trans (Finset.sum_congr rfl fun k _ => congrArg (· * v61 (ix2 j k)) ?_)
  unfold hid1 crelu
  refine congrArg (fun x => min (Ideal.ofBits .f32 0x3F800000#32) (max (Ideal.ofBits .f32 0x00000000#32) x)) ?_
  refine congrArg₂ (· + ·) ?_ (biasRow_apply v51 _ _ _ r k)
  refine (mm_hid1 _ _ r k).trans (Finset.sum_congr rfl fun k' _ => congrArg (· * v48 (ix2 k k')) ?_)
  refine (cat_apply _ _ r k').trans ?_
  refine congrArg₂ (fun f g => cat f g k') (funext fun a => ?_) (funext fun a => ?_)
  · exact congrArg (fun x => min (Ideal.ofBits .f32 0x3F800000#32) (max (Ideal.ofBits .f32 0x00000000#32) (v26 (ix2 r a) + x)))
      (biasRow_apply v27 _ _ _ r a)
  · exact congrArg (fun x => min (Ideal.ofBits .f32 0x3F800000#32) (max (Ideal.ofBits .f32 0x00000000#32) (v36 (ix2 r a) + x)))
      (biasRow_apply v37 _ _ _ r a)

/-- The output block at `(r, ·)`: the second hidden layer's clipping, then the head. -/
theorem head_apply (v63 : FVec Ideal S1024x32 .f32) (v64 v73 : Vec Ideal S1x32 .f32) (v78 : Vec Ideal S1x1 .f32)
    (r : Fin 1024) (u : Fin 1) :
    k0_pay5 v63 v64 v73 v78 (ix2 r u)
      = head (fun k => crelu (v63 (ix2 r k) + v64 (ix2 (0 : Fin 1) k))) v73 (v78 (ix2 (0 : Fin 1) (0 : Fin 1))) := by
  unfold k0_pay5 head crelu
  refine congrArg (fun x => min (Ideal.ofBits .f32 0x3F800000#32) (max (Ideal.ofBits .f32 0x00000000#32) x)) ?_
  have hu : u = 0 := Subsingleton.elim _ _
  subst hu
  refine congrArg₂ (· + ·) ?_ (biasRow_apply v78 _ _ _ r (0 : Fin 1))
  refine (column_apply _ _ r (0 : Fin 1)).trans ?_
  refine (rowSum_apply _ _ _ r).trans (Finset.sum_congr rfl fun k _ => ?_)
  refine congrArg₂ (· * ·) ?_ (broadcastTo_1b_ab_apply v73 _ r k)
  exact congrArg (fun x => min (Ideal.ofBits .f32 0x3F800000#32) (max (Ideal.ofBits .f32 0x00000000#32) (v63 (ix2 r k) + x)))
    (biasRow_apply v64 _ _ _ r k)

end Cert.KernelIdeal.Payload
end
-- ==== Proof.Blocks.lean ====
/- What the kernel's windows read at a grid point, in terms of the argument arrays: at point `t` the two input
   tiles are rows `1024·(t/32) …` and features `1280·(t mod 32) …` of the inputs, the weight tiles the same
   features of all 256 weight rows, and the small operands are whole (the biases through their reshape to a row). -/
import proofs.«110844_j86002425135471_2_alg».proof.Proof.Gen.KernelIdeal.Frame
import proofs.«110844_j86002425135471_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.ShloMosaic.Tactic Idealize.SL.Sem
open Idealize.ShloMosaic.Pipeline (Dat)

namespace Cert.KernelIdeal.Blocks
open Cert.KernelIdeal Cert.KernelIdeal.Gen Idealize.ShloMosaic.ValueIdx Cert.Nnue Idealize.ShloMosaic.StableHlo

variable (m : (ℓ : Loc nD τ sig) → Buf (Elt Ideal) ℓ) (c : Dev nD)

/-- The printed index maps over the 2 × 32 grid, decided point by point: the row tile is `t / 32`, the feature chunk
    `t mod 32`; every other operand has the one block `(0, 0)`. -/
theorem index_facts : ∀ t : Fin cfg0.N,
    win0_0.index t (0 : Fin 2) = t.val / 32 ∧ win0_0.index t (1 : Fin 2) = t.val % 32
    ∧ win0_1.index t (0 : Fin 2) = t.val / 32 ∧ win0_1.index t (1 : Fin 2) = t.val % 32
    ∧ win0_2.index t (0 : Fin 2) = 0 ∧ win0_2.index t (1 : Fin 2) = t.val % 32
    ∧ win0_3.index t (0 : Fin 2) = 0 ∧ win0_3.index t (1 : Fin 2) = t.val % 32
    ∧ win0_12.index t (0 : Fin 2) = t.val / 32 ∧ win0_12.index t (1 : Fin 2) = 0 :=
  (by decide +kernel : ∀ t : Fin grid0.N, _)

theorem index_zero : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- The first perspective's input tile at point `t` of row tile `q`. -/
theorem blk_player (t : Fin cfg0.N) (q : Fin 2) (hq : t.val / 32 = q.val) (r : Fin 1024) (k : Fin 1280) :
    (iblk m c 0 t : Vec Ideal S1024x1280 .f32) (ix2 r k)
      = m ((c : Thread nD τ).loc main_arg0) (ix2 (row q r) (col t.val k)) := by
  unfold iblk
  rw [View.read_apply]
  show V m c main_arg0 _ = _
  rw [V_main_arg0]
  refine congrArg (m ((c : Thread nD τ).loc main_arg0)) (funext fun a => Fin.ext ?_)
  obtain ⟨e0, e1, -⟩ := index_facts t
  match a with
  | ⟨0, _⟩ => show win0_0.index t (0 : Fin 2) * 1024 + 1 * r.val = q.val * 1024 + r.val; rw [e0, hq]; omega
  | ⟨1, _⟩ => show win0_0.index t (1 : Fin 2) * 1280 + 1 * k.val = t.val % 32 * 1280 + k.val; rw [e1]; omega

/-- The second perspective's input tile. -/
theorem blk_opp (t : Fin cfg0.N) (q : Fin 2) (hq : t.val / 32 = q.val) (r : Fin 1024) (k : Fin 1280) :
    (iblk m c 1 t : Vec Ideal S1024x1280 .f32) (ix2 r k)
      = m ((c : Thread nD τ).loc main_arg1) (ix2 (row q r) (col t.val k)) := by
  unfold iblk
  rw [View.read_apply]
  show V m c main_arg1 _ = _
  rw [V_main_arg1]
  refine congrArg (m ((c : Thread nD τ).loc main_arg1)) (funext fun a => Fin.ext ?_)
  obtain ⟨-, -, e0, e1, -⟩ := index_facts t
  match a with
  | ⟨0, _⟩ => show win0_1.index t (0 : Fin 2) * 1024 + 1 * r.val = q.val * 1024 + r.val; rw [e0, hq]; omega
  | ⟨1, _⟩ => show win0_1.index t (1 : Fin 2) * 1280 + 1 * k.val = t.val % 32 * 1280 + k.val; rw [e1]; omega

/-- The first perspective's weight tile: all 256 rows, the point's chunk of features. -/
theorem blk_wp (t : Fin cfg0.N) (j : Fin 256) (k : Fin 1280) :
    (iblk m c 2 t : Vec Ideal S256x1280 .f32) (ix2 j k) = m ((c : Thread nD τ).loc main_arg2) (ix2 j (col t.val k)) := by
  unfold iblk
  rw [View.read_apply]
  show V m c main_arg2 _ = _
  rw [V_main_arg2]
  refine congrArg (m ((c : Thread nD τ).loc main_arg2)) (funext fun a => Fin.ext ?_)
  obtain ⟨-, -, -, -, e0, e1, -⟩ := index_facts t
  match a with
  | ⟨0, _⟩ => show win0_2.index t (0 : Fin 2) * 256 + 1 * j.val = j.val; rw [e0]; omega
  | ⟨1, _⟩ => show win0_2.index t (1 : Fin 2) * 1280 + 1 * k.val = t.val % 32 * 1280 + k.val; rw [e1]; omega

/-- The second perspective's weight tile. -/
theorem blk_wo (t : Fin cfg0.N) (j : Fin 256) (k : Fin 1280) :
    (iblk m c 3 t : Vec Ideal S256x1280 .f32) (ix2 j k) = m ((c : Thread nD τ).loc main_arg4) (ix2 j (col t.val k)) := by
  unfold iblk
  rw [View.read_apply]
  show V m c main_arg4 _ = _
  rw [V_main_arg4]
  refine congrArg (m ((c : Thread nD τ).loc main_arg4)) (funext fun a => Fin.ext ?_)
  obtain ⟨-, -, -, -, -, -, e0, e1, -⟩ := index_facts t
  match a with
  | ⟨0, _⟩ => show win0_3.index t (0 : Fin 2) * 256 + 1 * j.val = j.val; rw [e0]; omega
  | ⟨1, _⟩ => show win0_3.index t (1 : Fin 2) * 1280 + 1 * k.val = t.val % 32 * 1280 + k.val; rw [e1]; omega

/-- The first hidden layer's weights, whole. -/
theorem blk_w2 (t : Fin cfg0.N) (p : Fin 32) (k : Fin 512) :
    (iblk m c 6 t : Vec Ideal S32x512 .f32) (ix2 p k) = m ((c : Thread nD τ).loc main_arg6) (ix2 p k) := by
  unfold iblk
  rw [View.read_apply]
  show V m c main_arg6 _ = _
  rw [V_main_arg6]
  refine congrArg (m ((c : Thread nD τ).loc main_arg6)) (funext fun a => Fin.ext ?_)
  obtain ⟨-, -, -, -, e0, e1, -⟩ := index_zero t
  match a with
  | ⟨0, _⟩ => show win0_6.index t (0 : Fin 2) * 32 + 1 * p.val = p.val; rw [e0]; omega
  | ⟨1, _⟩ => show win0_6.index t (1 : Fin 2) * 512 + 1 * k.val = k.val; rw [e1]; omega

/-- The second hidden layer's weights, whole. -/
theorem blk_w3 (t : Fin cfg0.N) (p : Fin 32) (k : Fin 32) :
    (iblk m c 8 t : Vec Ideal S32x32 .f32) (ix2 p k) = m ((c : Thread nD τ).loc main_arg8) (ix2 p k) := by
  unfold iblk
  rw [View.read_apply]
  show V m c main_arg8 _ = _
  rw [V_main_arg8]
  refine congrArg (m ((c : Thread nD τ).loc main_arg8)) (funext fun a => Fin.ext ?_)
  obtain ⟨-, -, -, -, -, -, -, -, e0, e1, -⟩ := index_zero t
  match a with
  | ⟨0, _⟩ => show win0_8.index t (0 : Fin 2) * 32 + 1 * p.val = p.val; rw [e0]; omega
  | ⟨1, _⟩ => show win0_8.index t (1 : Fin 2) * 32 + 1 * k.val = k.val; rw [e1]; omega

/-- The head's weights, whole. -/
theorem blk_wout (t : Fin cfg0.N) (p : Fin 1) (k : Fin 32) :
    (iblk m c 10 t : Vec Ideal S1x32 .f32) (ix2 p k) = m ((c : Thread nD τ).loc main_arg10) (ix2 p k) := by
  unfold iblk
  rw [View.read_apply]
  show V m c main_arg10 _ = _
  rw [V_main_arg10]
  refine congrArg (m ((c : Thread nD τ).loc main_arg10)) (funext fun a => Fin.ext ?_)
  obtain ⟨-, -, -, -, -, -, -, -, -, -, -, -, e0, e1, -⟩ := index_zero t
  match a with
  | ⟨0, _⟩ => show win0_10.index t (0 : Fin 2) * 1 + 1 * p.val = p.val; rw [e0]; omega
  | ⟨1, _⟩ => show win0_10.index t (1 : Fin 2) * 32 + 1 * k.val = k.val; rw [e1]; omega

theorem V_main_v0 : (V m c main_v0 : S1x256.Idx → EReal) = shapeCast S1x256 (m ((c : Thread nD τ).loc main_arg3)) shapeCasts_S256_S1x256 := by
  dsimp only [V, hostOps0]; after_results; rfl

/-- The first perspective's bias, as the row the host reshaped it to. -/
theorem blk_b1p (t : Fin cfg0.N) (k : Fin 256) :
    (iblk m c 4 t : Vec Ideal S1x256 .f32) (ix2 (0 : Fin 1) k) = m ((c : Thread nD τ).loc main_arg3) (ix1 k) := by
  unfold iblk
  rw [View.read_apply]
  show V m c main_v0 _ = _
  rw [V_main_v0]
  refine (congrArg (shapeCast S1x256 (m ((c : Thread nD τ).loc main_arg3)) shapeCasts_S256_S1x256) (?_ : _ = ix2 (0 : Fin 1) k)).trans
    (shapeCast_a_1a_apply _ _ (0 : Fin 1) k)
  funext a
  apply Fin.ext
  obtain ⟨e0, e1, -⟩ := index_zero t
  match a with
  | ⟨0, _⟩ => show win0_4.index t (0 : Fin 2) * 1 + 1 * 0 = 0; rw [e0]
  | ⟨1, _⟩ => show win0_4.index t (1 : Fin 2) * 256 + 1 * k.val = k.val; rw [e1]; omega

theorem V_main_v1 : (V m c main_v1 : S1x256.Idx → EReal) = shapeCast S1x256 (m ((c : Thread nD τ).loc main_arg5)) shapeCasts_S256_S1x256 := by
  dsimp only [V, hostOps0]; after_results; rfl

/-- The second perspective's bias. -/
theorem blk_b1o (t : Fin cfg0.N) (k : Fin 256) :
    (iblk m c 5 t : Vec Ideal S1x256 .f32) (ix2 (0 : Fin 1) k) = m ((c : Thread nD τ).loc main_arg5) (ix1 k) := by
  unfold iblk
  rw [View.read_apply]
  show V m c main_v1 _ = _
  rw [V_main_v1]
  refine (congrArg (shapeCast S1x256 (m ((c : Thread nD τ).loc main_arg5)) shapeCasts_S256_S1x256) (?_ : _ = ix2 (0 : Fin 1) k)).trans
    (shapeCast_a_1a_apply _ _ (0 : Fin 1) k)
  funext a
  apply Fin.ext
  obtain ⟨-, -, e0, e1, -⟩ := index_zero t
  match a with
  | ⟨0, _⟩ => show win0_5.index t (0 : Fin 2) * 1 + 1 * 0 = 0; rw [e0]
  | ⟨1, _⟩ => show win0_5.index t (1 : Fin 2) * 256 + 1 * k.val = k.val; rw [e1]; omega

theorem V_main_v2 : (V m c main_v2 : S1x32.Idx → EReal) = shapeCast S1x32 (m ((c : Thread nD τ).loc main_arg7)) shapeCasts_S32_S1x32 := by
  dsimp only [V, hostOps0]; after_results; rfl

/-- The first hidden layer's bias. -/
theorem blk_b2 (t : Fin cfg0.N) (k : Fin 32) :
    (iblk m c 7 t : Vec Ideal S1x32 .f32) (ix2 (0 : Fin 1) k) = m ((c : Thread nD τ).loc main_arg7) (ix1 k) := by
  unfold iblk
  rw [View.read_apply]
  show V m c main_v2 _ = _
  rw [V_main_v2]
  refine (congrArg (shapeCast S1x32 (m ((c : Thread nD τ).loc main_arg7)) shapeCasts_S32_S1x32) (?_ : _ = ix2 (0 : Fin 1) k)).trans
    (shapeCast_a_1a_apply _ _ (0 : Fin 1) k)
  funext a
  apply Fin.ext
  obtain ⟨-, -, -, -, -, -, e0, e1, -⟩ := index_zero t
  match a with
  | ⟨0, _⟩ => show win0_7.index t (0 : Fin 2) * 1 + 1 * 0 = 0; rw [e0]
  | ⟨1, _⟩ => show win0_7.index t (1 : Fin 2) * 32 + 1 * k.val = k.val; rw [e1]; omega

theorem V_main_v3 : (V m c main_v3 : S1x32.Idx → EReal) = shapeCast S1x32 (m ((c : Thread nD τ).loc main_arg9)) shapeCasts_S32_S1x32 := by
  dsimp only [V, hostOps0]; after_results; rfl

/-- The second hidden layer's bias. -/
theorem blk_b3 (t : Fin cfg0.N) (k : Fin 32) :
    (iblk m c 9 t : Vec Ideal S1x32 .f32) (ix2 (0 : Fin 1) k) = m ((c : Thread nD τ).loc main_arg9) (ix1 k) := by
  unfold iblk
  rw [View.read_apply]
  show V m c main_v3 _ = _
  rw [V_main_v3]
  refine (congrArg (shapeCast S1x32 (m ((c : Thread nD τ).loc main_arg9)) shapeCasts_S32_S1x32) (?_ : _ = ix2 (0 : Fin 1) k)).trans
    (shapeCast_a_1a_apply _ _ (0 : Fin 1) k)
  funext a
  apply Fin.ext
  obtain ⟨-, -, -, -, -, -, -, -, -, -, e0, e1, -⟩ := index_zero t
  match a with
  | ⟨0, _⟩ => show win0_9.index t (0 : Fin 2) * 1 + 1 * 0 = 0; rw [e0]
  | ⟨1, _⟩ => show win0_9.index t (1 : Fin 2) * 32 + 1 * k.val = k.val; rw [e1]; omega

theorem V_main_v4 : (V m c main_v4 : S1x1.Idx → EReal) = shapeCast S1x1 (m ((c : Thread nD τ).loc main_arg11)) shapeCasts_S1_S1x1 := by
  dsimp only [V, hostOps0]; after_results; rfl

/-- The head's bias. -/
theorem blk_bout (t : Fin cfg0.N) (k : Fin 1) :
    (iblk m c 11 t : Vec Ideal S1x1 .f32) (ix2 (0 : Fin 1) k) = m ((c : Thread nD τ).loc main_arg11) (ix1 k) := by
  unfold iblk
  rw [View.read_apply]
  show V m c main_v4 _ = _
  rw [V_main_v4]
  refine (congrArg (shapeCast S1x1 (m ((c : Thread nD τ).loc main_arg11)) shapeCasts_S1_S1x1) (?_ : _ = ix2 (0 : Fin 1) k)).trans
    (shapeCast_a_1a_apply _ _ (0 : Fin 1) k)
  funext a
  apply Fin.ext
  obtain ⟨-, -, -, -, -, -, -, -, -, -, -, -, -, -, e0, e1⟩ := index_zero t
  match a with
  | ⟨0, _⟩ => show win0_11.index t (0 : Fin 2) * 1 + 1 * 0 = 0; rw [e0]
  | ⟨1, _⟩ => show win0_11.index t (1 : Fin 2) * 1 + 1 * k.val = k.val; rw [e1]; omega

end Cert.KernelIdeal.Blocks
end
-- ==== Proof.Fold.lean ====
/- The accumulators over a row tile's 32 reduction steps: each step adds its chunk's part of the inner product,
   the first step to zero, so that after the last step an accumulator holds the whole inner product of an
   input row with a weight row over all 40960 features. -/
import proofs.«110844_j86002425135471_2_alg».proof.Proof.Gen.KernelIdeal.Value
import proofs.«110844_j86002425135471_2_alg».proof.Proof.Pieces
import proofs.«110844_j86002425135471_2_alg».proof.Proof.Payload
import proofs.«110844_j86002425135471_2_alg».proof.Proof.Blocks
import proofs.«110844_j86002425135471_2_alg».proof.Proof.Spec

set_option maxRecDepth 16384

noncomputable section

open Idealize.ShloMosaic Idealize.ShloMosaic.TcCoe Idealize.ShloMosaic.Tactic Idealize.SL.Sem
open Idealize.ShloMosaic.Pipeline (Dat)

open scoped BigOperators

namespace Cert.KernelIdeal.Fold
open Cert.KernelIdeal Cert.KernelIdeal.Gen Cert.KernelIdeal.Value Idealize.ShloMosaic.ValueIdx Cert.Nnue

variable (m : (ℓ : Loc nD τ sig) → Buf (Elt Ideal) ℓ) (c : Dev nD)

/-! ## The first perspective's accumulator -/

/-- One step, as the body's arithmetic on the point's two tiles: into zero at a row tile's first step, into what the
    step before left otherwise. -/
theorem stepP_eq (n : ℕ) (hb : n < cfg0.N) (acc : Vec Ideal S1024x256 .f32) :
    scAt0_0 m c n hb acc
      = k0_pay3 (iblk m c 0 ⟨n, hb⟩) (iblk m c 2 ⟨n, hb⟩) (if n % 32 = 0 then k0_pay1 (F := Ideal) else acc) := by
  unfold scAt0_0
  by_cases h0 : n % 32 = 0
  · have h1 : ¬n % 32 = 31 := by omega
    rw [dif_pos h0, dif_neg h1, if_pos h0]
    exact Pieces.accP_first ..
  · rw [dif_neg h0, if_neg h0]
    by_cases h1 : n % 32 = 31
    · rw [dif_pos h1]; exact Pieces.accP_last ..
    · rw [dif_neg h1]; exact Pieces.accP_mid ..

/-- One step at an element: the chunk's part of the inner product, added to zero or to the element before. -/
theorem stepP_apply (n : ℕ) (hb : n < cfg0.N) (acc : Vec Ideal S1024x256 .f32) (q : Fin 2) (hq : n / 32 = q.val)
    (r : Fin 1024) (j : Fin 256) :
    scAt0_0 m c n hb acc (ix2 r j)
      = (if n % 32 = 0 then 0 else acc (ix2 r j))
        + chunk (m ((c : Thread nD τ).loc main_arg0)) (m ((c : Thread nD τ).loc main_arg2)) (row q r) j n := by
  rw [stepP_eq, Payload.accP_apply]
  refine congrArg₂ (· + ·) ?_ ?_
  · by_cases h0 : n % 32 = 0
    · rw [if_pos h0, if_pos h0]; exact Payload.zeroP_apply _
    · rw [if_neg h0, if_neg h0]
  · unfold chunk
    exact Finset.sum_congr rfl fun k _ => by
      rw [Blocks.blk_player m c ⟨n, hb⟩ q hq r k, Blocks.blk_wp m c ⟨n, hb⟩ j k]

/-- After point `t` of row tile `q` the accumulator holds the sum of the chunks of the steps so far. -/
theorem accP_at (t : Fin cfg0.N) (q : Fin 2) (hq : t.val / 32 = q.val) (r : Fin 1024) (j : Fin 256) :
    (outsAt0 m c t.val t.isLt).2.1 (ix2 r j)
      = 0 + ∑ s ∈ Finset.range (t.val % 32 + 1),
          chunk (m ((c : Thread nD τ).loc main_arg0)) (m ((c : Thread nD τ).loc main_arg2)) (row q r) j (32 * (t.val / 32) + s) := by
  have hN : cfg0.N = 64 := N_0
  have ht := t.isLt
  rw [soutsAt0_0_eq m c t]
  refine Pipeline.accAt_add_apply (ι := S1024x256.Idx) (β := EReal) _ (scAt0_0 m c) (fun _ => 0)
    (fun n i => chunk (m ((c : Thread nD τ).loc main_arg0)) (m ((c : Thread nD τ).loc main_arg2)) (row q (i 0)) (i 1) n)
    (32 * (t.val / 32)) 31 ?_ ?_ (t.val % 32) (by omega) _ (ix2 r j)
  · intro h i
    obtain ⟨r', j', rfl⟩ : ∃ (r' : Fin 1024) (j' : Fin 256), i = ix2 r' j' := ⟨i 0, i 1, eq_ix2 i⟩
    refine (stepP_apply m c _ h _ q (by omega) r' j').trans ?_
    rw [if_pos (by omega)]
  · intro n h acc i h1 h2
    obtain ⟨r', j', rfl⟩ : ∃ (r' : Fin 1024) (j' : Fin 256), i = ix2 r' j' := ⟨i 0, i 1, eq_ix2 i⟩
    refine (stepP_apply m c n h acc q (by omega) r' j').trans ?_
    rw [if_neg (by omega)]

/-- After a row tile's last step: the whole inner product. -/
theorem accP_final (t : Fin cfg0.N) (q : Fin 2) (hq : t.val / 32 = q.val) (h31 : t.val % 32 = 31) (r : Fin 1024) (j : Fin 256) :
    (outsAt0 m c t.val t.isLt).2.1 (ix2 r j)
      = dot (m ((c : Thread nD τ).loc main_arg0)) (m ((c : Thread nD τ).loc main_arg2)) (row q r) j := by
  rw [accP_at m c t q hq r j, h31, zero_add, dot_eq_sum_chunks]
  exact Finset.sum_congr rfl fun s _ => chunk_add_mul _ _ _ _ _ _

/-! ## The second perspective's accumulator -/

/-- One step, as the body's arithmetic on the point's two tiles: into zero at a row tile's first step, into what the
    step before left otherwise. -/
theorem stepO_eq (n : ℕ) (hb : n < cfg0.N) (acc : Vec Ideal S1024x256 .f32) :
    scAt0_1 m c n hb acc
      = k0_pay4 (iblk m c 1 ⟨n, hb⟩) (iblk m c 3 ⟨n, hb⟩) (if n % 32 = 0 then k0_pay2 (F := Ideal) else acc) := by
  unfold scAt0_1
  by_cases h0 : n % 32 = 0
  · have h1 : ¬n % 32 = 31 := by omega
    rw [dif_pos h0, dif_neg h1, if_pos h0]
    exact Pieces.accO_first ..
  · rw [dif_neg h0, if_neg h0]
    by_cases h1 : n % 32 = 31
    · rw [dif_pos h1]; exact Pieces.accO_last ..
    · rw [dif_neg h1]; exact Pieces.accO_mid ..

/-- One step at an element: the chunk's part of the inner product, added to zero or to the element before. -/
theorem stepO_apply (n : ℕ) (hb : n < cfg0.N) (acc : Vec Ideal S1024x256 .f32) (q : Fin 2) (hq : n / 32 = q.val)
    (r : Fin 1024) (j : Fin 256) :
    scAt0_1 m c n hb acc (ix2 r j)
      = (if n % 32 = 0 then 0 else acc (ix2 r j))
        + chunk (m ((c : Thread nD τ).loc main_arg1)) (m ((c : Thread nD τ).loc main_arg4)) (row q r) j n := by
  rw [stepO_eq, Payload.accO_apply]
  refine congrArg₂ (· + ·) ?_ ?_
  · by_cases h0 : n % 32 = 0
    · rw [if_pos h0, if_pos h0]; exact Payload.zeroO_apply _
    · rw [if_neg h0, if_neg h0]
  · unfold chunk
    exact Finset.sum_congr rfl fun k _ => by
      rw [Blocks.blk_opp m c ⟨n, hb⟩ q hq r k, Blocks.blk_wo m c ⟨n, hb⟩ j k]

/-- After point `t` of row tile `q` the accumulator holds the sum of the chunks of the steps so far. -/
theorem accO_at (t : Fin cfg0.N) (q : Fin 2) (hq : t.val / 32 = q.val) (r : Fin 1024) (j : Fin 256) :
    (outsAt0 m c t.val t.isLt).2.2 (ix2 r j)
      = 0 + ∑ s ∈ Finset.range (t.val % 32 + 1),
          chunk (m ((c : Thread nD τ).loc main_arg1)) (m ((c : Thread nD τ).loc main_arg4)) (row q r) j (32 * (t.val / 32) + s) := by
  have hN : cfg0.N = 64 := N_0
  have ht := t.isLt
  rw [soutsAt0_1_eq m c t]
  refine Pipeline.accAt_add_apply (ι := S1024x256.Idx) (β := EReal) _ (scAt0_1 m c) (fun _ => 0)
    (fun n i => chunk (m ((c : Thread nD τ).loc main_arg1)) (m ((c : Thread nD τ).loc main_arg4)) (row q (i 0)) (i 1) n)
    (32 * (t.val / 32)) 31 ?_ ?_ (t.val % 32) (by omega) _ (ix2 r j)
  · intro h i
    obtain ⟨r', j', rfl⟩ : ∃ (r' : Fin 1024) (j' : Fin 256), i = ix2 r' j' := ⟨i 0, i 1, eq_ix2 i⟩
    refine (stepO_apply m c _ h _ q (by omega) r' j').trans ?_
    rw [if_pos (by omega)]
  · intro n h acc i h1 h2
    obtain ⟨r', j', rfl⟩ : ∃ (r' : Fin 1024) (j' : Fin 256), i = ix2 r' j' := ⟨i 0, i 1, eq_ix2 i⟩
    refine (stepO_apply m c n h acc q (by omega) r' j').trans ?_
    rw [if_neg (by omega)]

/-- After a row tile's last step: the whole inner product. -/
theorem accO_final (t : Fin cfg0.N) (q : Fin 2) (hq : t.val / 32 = q.val) (h31 : t.val % 32 = 31) (r : Fin 1024) (j : Fin 256) :
    (outsAt0 m c t.val t.isLt).2.2 (ix2 r j)
      = dot (m ((c : Thread nD τ).loc main_arg1)) (m ((c : Thread nD τ).loc main_arg4)) (row q r) j := by
  rw [accO_at m c t q hq r j, h31, zero_add, dot_eq_sum_chunks]
  exact Finset.sum_congr rfl fun s _ => chunk_add_mul _ _ _ _ _ _

end Cert.KernelIdeal.Fold
end
-- ==== Proof.KernelValue.lean ====
/- The kernel's result array: at the last reduction step of each row tile the output block is the three clipped
   layers applied to the finished accumulators, which is the network's output for the tile's 1024 board positions;
   the two tiles' blocks are the two halves of the result array. -/
import proofs.«110844_j86002425135471_2_alg».proof.Proof.Gen.KernelIdeal.Value
import proofs.«110844_j86002425135471_2_alg».proof.Proof.Pieces
import proofs.«110844_j86002425135471_2_alg».proof.Proof.Payload
import proofs.«110844_j86002425135471_2_alg».proof.Proof.Blocks
import proofs.«110844_j86002425135471_2_alg».proof.Proof.Fold
import proofs.«110844_j86002425135471_2_alg».proof.Proof.Spec

set_option maxRecDepth 16384

noncomputable section

open Idealize.ShloMosaic Idealize.ShloMosaic.TcCoe Idealize.ShloMosaic.Tactic Idealize.SL.Sem
open Idealize.ShloMosaic.Pipeline (Dat)

open scoped BigOperators

namespace Cert.KernelIdeal.KValue
open Cert.KernelIdeal Cert.KernelIdeal.Gen Cert.KernelIdeal.Value Idealize.ShloMosaic.ValueIdx Cert.Nnue

variable (m : (ℓ : Loc nD τ sig) → Buf (Elt Ideal) ℓ) (c : Dev nD)

/-- At a row tile's last step the output block is the head of the network applied to the two accumulators as that
    step leaves them. -/
theorem out_at_last (t : Fin cfg0.N) (h31 : t.val % 32 = 31) :
    (outsAt0 m c t.val t.isLt).1
      = k0_pay5 (k0_pay6 (outsAt0 m c t.val t.isLt).2.1 (iblk m c 4 t) (outsAt0 m c t.val t.isLt).2.2 (iblk m c 5 t)
          (iblk m c 6 t) (iblk m c 7 t) (iblk m c 8 t)) (iblk m c 9 t) (iblk m c 10 t) (iblk m c 11 t) := by
  have h0 : ¬t.val % 32 = 0 := by omega
  rw [outsAt0_C m c t h0 h31]
  dsimp only
  rw [Pieces.out_last, Pieces.accP_last, Pieces.accO_last]

/-- … which, element by element, is the network's output for board position `r` of the tile. -/
theorem out_apply (t : Fin cfg0.N) (q : Fin 2) (hq : t.val / 32 = q.val) (h31 : t.val % 32 = 31) (r : Fin 1024) (u : Fin 1) :
    (outsAt0 m c t.val t.isLt).1 (ix2 r u) = outRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (row q r) := by
  have hfP : (fun a : Fin 256 => crelu ((outsAt0 m c t.val t.isLt).2.1 (ix2 r a) + (iblk m c 4 t : Vec Ideal S1x256 .f32) (ix2 (0 : Fin 1) a)))
      = feat (m ((c : Thread nD τ).loc main_arg0)) (m ((c : Thread nD τ).loc main_arg2)) (m ((c : Thread nD τ).loc main_arg3)) (row q r) := funext fun a => by
    rw [Fold.accP_final m c t q hq h31 r a, Blocks.blk_b1p m c t a]; rfl
  have hfO : (fun a : Fin 256 => crelu ((outsAt0 m c t.val t.isLt).2.2 (ix2 r a) + (iblk m c 5 t : Vec Ideal S1x256 .f32) (ix2 (0 : Fin 1) a)))
      = feat (m ((c : Thread nD τ).loc main_arg1)) (m ((c : Thread nD τ).loc main_arg4)) (m ((c : Thread nD τ).loc main_arg5)) (row q r) := funext fun a => by
    rw [Fold.accO_final m c t q hq h31 r a, Blocks.blk_b1o m c t a]; rfl
  have hW2 : (iblk m c 6 t : Vec Ideal S32x512 .f32) = (m ((c : Thread nD τ).loc main_arg6)) := funext fun i => by
    obtain ⟨p, k, rfl⟩ : ∃ (p : Fin 32) (k : Fin 512), i = ix2 p k := ⟨i 0, i 1, eq_ix2 i⟩
    exact Blocks.blk_w2 m c t p k
  have hb2 : (fun a : Fin 32 => (iblk m c 7 t : Vec Ideal S1x32 .f32) (ix2 (0 : Fin 1) a)) = fun a => (m ((c : Thread nD τ).loc main_arg7)) (ix1 a) :=
    funext fun a => Blocks.blk_b2 m c t a
  have hW3 : (iblk m c 8 t : Vec Ideal S32x32 .f32) = (m ((c : Thread nD τ).loc main_arg8)) := funext fun i => by
    obtain ⟨p, k, rfl⟩ : ∃ (p : Fin 32) (k : Fin 32), i = ix2 p k := ⟨i 0, i 1, eq_ix2 i⟩
    exact Blocks.blk_w3 m c t p k
  have hWo : (iblk m c 10 t : Vec Ideal S1x32 .f32) = (m ((c : Thread nD τ).loc main_arg10)) := funext fun i => by
    obtain ⟨p, k, rfl⟩ : ∃ (p : Fin 1) (k : Fin 32), i = ix2 p k := ⟨i 0, i 1, eq_ix2 i⟩
    exact Blocks.blk_wout m c t p k
  have hf : (fun k : Fin 32 => crelu (k0_pay6 (outsAt0 m c t.val t.isLt).2.1 (iblk m c 4 t) (outsAt0 m c t.val t.isLt).2.2 (iblk m c 5 t)
        (iblk m c 6 t) (iblk m c 7 t) (iblk m c 8 t) (ix2 r k) + (iblk m c 9 t : Vec Ideal S1x32 .f32) (ix2 (0 : Fin 1) k)))
      = hid2 (hid1 (feat (m ((c : Thread nD τ).loc main_arg0)) (m ((c : Thread nD τ).loc main_arg2)) (m ((c : Thread nD τ).loc main_arg3)) (row q r)) (feat (m ((c : Thread nD τ).loc main_arg1)) (m ((c : Thread nD τ).loc main_arg4)) (m ((c : Thread nD τ).loc main_arg5)) (row q r))
          (m ((c : Thread nD τ).loc main_arg6)) (fun a => (m ((c : Thread nD τ).loc main_arg7)) (ix1 a))) (m ((c : Thread nD τ).loc main_arg8)) (fun a => (m ((c : Thread nD τ).loc main_arg9)) (ix1 a)) := funext fun k => by
    unfold hid2
    rw [Payload.hidden_apply, Blocks.blk_b3 m c t k, hfP, hfO, hW2, hb2, hW3]
  rw [out_at_last m c t h31, Payload.head_apply, hf, hWo, Blocks.blk_bout m c t (0 : Fin 1)]
  rfl

/-- What the write-back at a row tile's last step writes is that tile's block of the specified result. -/
theorem flushed_eq (t : Fin cfg0.N) (hf : (cfg0.win 12).flush t = true) :
    (dats m 0 c).flushed 12 t = ((cfg0.win 12).blk t).view.read (Elt Ideal)
      (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  have hN : cfg0.N = 64 := N_0
  have h31 : t.val % 32 = 31 := (flush0_12 t).mp hf
  have ht := t.isLt
  rw [Value.flushed12 m c t]
  funext y
  obtain ⟨r, u, rfl⟩ : ∃ (r : Fin 1024) (u : Fin 1), y = ix2 r u := ⟨y 0, y 1, eq_ix2 y⟩
  show (outsAt0 m c t.val t.isLt).1 (ix2 r u)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (((cfg0.win 12).blk t).view.emb (ix2 r u))
  rw [out_apply m c t ⟨t.val / 32, by omega⟩ rfl h31 r u]
  unfold result
  refine congrArg (outRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (Fin.ext ?_)
  obtain ⟨-, -, -, -, -, -, -, -, e0, -⟩ := Blocks.index_facts t
  show t.val / 32 * 1024 + r.val = win0_12.index t (0 : Fin 2) * 1024 + 1 * r.val
  rw [e0]; omega

/-- An index of the result array is in point `t`'s output block iff each coordinate is in the block's range. -/
theorem mem_blk (t : Fin cfg0.N) (i : S2048x1.Idx) :
    i ∈ ((cfg0.win 12).blk t).view.set ↔ ∀ a : Fin 2, win0_12.index t a * S1024x1.size a ≤ (i a).val
      ∧ (i a).val < win0_12.index t a * S1024x1.size a + S1024x1.size a := by
  show i ∈ ((View.whole main_v5).slice (win0_12.rect t)).set ↔ _
  rw [View.set_slice_whole, Rect.mem_set_unit]
  exact Iff.rfl

/-- Every board position lies in the block written at the last step of its row tile. -/
theorem cover (i : S2048x1.Idx) :
    ∃ t : Fin cfg0.N, (cfg0.win 12).flush t = true ∧ i ∈ ((cfg0.win 12).blk t).view.set := by
  have hN : cfg0.N = 64 := N_0
  have hi0 : (i 0).val < 2048 := (i 0).isLt
  have hi1 : (i 1).val < 1 := (i 1).isLt
  obtain ⟨t, ht⟩ : ∃ t : Fin cfg0.N, t.val = 32 * ((i 0).val / 1024) + 31 := ⟨⟨32 * ((i 0).val / 1024) + 31, by omega⟩, rfl⟩
  refine ⟨t, (flush0_12 t).mpr (by omega), ?_⟩
  rw [mem_blk]
  obtain ⟨-, -, -, -, -, -, -, -, e0, e1⟩ := Blocks.index_facts t
  intro a
  match a with
  | ⟨0, _⟩ =>
    show win0_12.index t (0 : Fin 2) * 1024 ≤ (i 0).val ∧ (i 0).val < win0_12.index t (0 : Fin 2) * 1024 + 1024
    rw [e0]; omega
  | ⟨1, _⟩ =>
    show win0_12.index t (1 : Fin 2) * 1 ≤ (i 1).val ∧ (i 1).val < win0_12.index t (1 : Fin 2) * 1 + 1
    rw [e1]; omega

/-- So after the run the result array is the specified result of the argument arrays. -/
theorem final : (dats m 0 c).arrAt 12 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (dats m 0 c).arrAt_eq_of_cover 12 _ (flushed_eq m c) (cover)

/-- The kernel's run: it terminates without fault, with the result array at the specified result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.KValue
end
-- ==== Proof.lean ====
/- An NNUE evaluation network: for each of 2048 board positions, two feature vectors of 256 clipped affine forms over
   40960 input features (one per perspective), joined and passed through three clipped affine layers
   (512 → 32 → 32 → 1), every clipping being `min 1 (max 0 ·)`.

   The kernel walks a 2 × 32 grid: row tiles of 1024 positions, and for each tile 32 chunks of 1280 input features.
   Two accumulators collect, chunk by chunk, the inner products of the tile's input rows with the 256 weight rows
   (zeroed at a tile's first chunk); at the tile's last chunk the biases are added, the three layers applied, and the
   tile's 1024 outputs written.  The reference computes the same inner products in one contraction over all 40960
   features.  Over the extended reals the two agree because a sum over 40960 terms is the sum of its 32 consecutive
   chunks of 1280 — associativity and commutativity of addition only, so the precondition is not used —, a matrix
   product into a zero accumulator is the plain sum of products, and a change of float format is the identity.

   Modules: Spec (the network as a function of its arrays, and the chunking law), RefValue (the reference, stage by
   stage, is that function), Pieces (what one grid point leaves in the accumulators and the output block), Payload
   (the body's arithmetic at an element), Blocks (what the windows read), Fold (the accumulators over a tile's 32
   steps), KernelValue (the kernel's result array is that function).  The idealization rewrote nothing, so the
   kernel and its idealization are the same program read at two instances. -/
import proofs.«110844_j86002425135471_2_alg».proof.Defs
import proofs.«110844_j86002425135471_2_alg».proof.Proof.Gen.Kernel
import proofs.«110844_j86002425135471_2_alg».proof.Proof.Gen.Kernel.Skeleton
import proofs.«110844_j86002425135471_2_alg».proof.Proof.Gen.Kernel.Launch
import proofs.«110844_j86002425135471_2_alg».proof.Proof.Gen.Kernel.Points
import proofs.«110844_j86002425135471_2_alg».proof.Proof.Gen.Kernel.Frame
import proofs.«110844_j86002425135471_2_alg».proof.Proof.Gen.KernelIdeal
import proofs.«110844_j86002425135471_2_alg».proof.Proof.Gen.KernelIdeal.Skeleton
import proofs.«110844_j86002425135471_2_alg».proof.Proof.Gen.KernelIdeal.Launch
import proofs.«110844_j86002425135471_2_alg».proof.Proof.Gen.KernelIdeal.Points
import proofs.«110844_j86002425135471_2_alg».proof.Proof.Gen.KernelIdeal.Frame
import proofs.«110844_j86002425135471_2_alg».proof.Proof.Gen.KernelIdeal.Value
import proofs.«110844_j86002425135471_2_alg».proof.Proof.Gen.ReferenceIdeal
import proofs.«110844_j86002425135471_2_alg».proof.Proof.Gen.ReferenceIdeal.Run
import proofs.«110844_j86002425135471_2_alg».proof.Proof.Gen.ReferenceIdeal.Read
import proofs.«110844_j86002425135471_2_alg».proof.Proof.Gen.Pre_finite_inputs
import proofs.«110844_j86002425135471_2_alg».proof.Proof.Spec
import proofs.«110844_j86002425135471_2_alg».proof.Proof.RefValue
import proofs.«110844_j86002425135471_2_alg».proof.Proof.KernelValue
import Idealize.ShloMosaic.Adequacy
import Idealize.ShloMosaic.Init

noncomputable section

namespace Cert.Proof

open Idealize.ShloMosaic Idealize.SL.Sem Cert.Kernel

/-- The kernel at the word level terminates without fault and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the network's output for every board position: the kernel by its
    accumulation over chunks, the reference by its single contraction, of argument arrays that agree. -/
theorem algebraic : Cert.algebraic_KernelIdeal_ReferenceIdeal := by
  intro m ρ m' ρ' _ hagree
  refine ⟨fun c => Cert.Nnue.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v30_eq, Cert.ReferenceIdeal.RefValue.result_eq, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
